-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S128x256 : Shape := ⟨2, ![128, 256]⟩
abbrev S256x256 : Shape := ⟨2, ![256, 256]⟩
abbrev S256x96 : Shape := ⟨2, ![256, 96]⟩
abbrev S4x256 : Shape := ⟨2, ![4, 256]⟩
abbrev S_ : Shape := ⟨0, ![]⟩
abbrev S4x248 : Shape := ⟨2, ![4, 248]⟩
abbrev S124x8 : Shape := ⟨2, ![124, 8]⟩
abbrev S124x248 : Shape := ⟨2, ![124, 248]⟩
abbrev S8x248 : Shape := ⟨2, ![8, 248]⟩
abbrev S248x8 : Shape := ⟨2, ![248, 8]⟩
abbrev S248x248 : Shape := ⟨2, ![248, 248]⟩
abbrev S8x93 : Shape := ⟨2, ![8, 93]⟩
abbrev S248x3 : Shape := ⟨2, ![248, 3]⟩
abbrev S248x93 : Shape := ⟨2, ![248, 93]⟩
abbrev S3x256 : Shape := ⟨2, ![3, 256]⟩
abbrev S3x248 : Shape := ⟨2, ![3, 248]⟩
abbrev S1x96 : Shape := ⟨2, ![1, 96]⟩
abbrev S1x93 : Shape := ⟨2, ![1, 93]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256x96 : S_.BroadcastsInDim S256x96 (![] : Fin 0 → Fin S256x96.rank)
  reducesTo_S256x96_S_d0_1 : S256x96.ReducesTo [0, 1] S_
  bcast_S_S4x256 : S_.BroadcastsInDim S4x256 (![] : Fin 0 → Fin S4x256.rank)
  reducesTo_S4x256_S_d0_1 : S4x256.ReducesTo [0, 1] S_
  slices_S128x256_S4x248_0_8 : S128x256.Slices ![0, 8] S4x248
  bcast_S_S4x248 : S_.BroadcastsInDim S4x248 (![] : Fin 0 → Fin S4x248.rank)
  reducesTo_S4x248_S_d0_1 : S4x248.ReducesTo [0, 1] S_
  slices_S128x256_S124x8_4_0 : S128x256.Slices ![4, 0] S124x8
  bcast_S_S124x8 : S_.BroadcastsInDim S124x8 (![] : Fin 0 → Fin S124x8.rank)
  reducesTo_S124x8_S_d0_1 : S124x8.ReducesTo [0, 1] S_
  slices_S128x256_S124x248_4_8 : S128x256.Slices ![4, 8] S124x248
  slices_S128x256_S124x248_0_0 : S128x256.Slices ![0, 0] S124x248
  reducesTo_S124x248_S_d0_1 : S124x248.ReducesTo [0, 1] S_
  slices_S256x256_S8x248_0_8 : S256x256.Slices ![0, 8] S8x248
  bcast_S_S8x248 : S_.BroadcastsInDim S8x248 (![] : Fin 0 → Fin S8x248.rank)
  reducesTo_S8x248_S_d0_1 : S8x248.ReducesTo [0, 1] S_
  slices_S256x256_S248x8_8_0 : S256x256.Slices ![8, 0] S248x8
  bcast_S_S248x8 : S_.BroadcastsInDim S248x8 (![] : Fin 0 → Fin S248x8.rank)
  reducesTo_S248x8_S_d0_1 : S248x8.ReducesTo [0, 1] S_
  slices_S256x256_S248x248_8_8 : S256x256.Slices ![8, 8] S248x248
  slices_S256x256_S248x248_0_0 : S256x256.Slices ![0, 0] S248x248
  reducesTo_S248x248_S_d0_1 : S248x248.ReducesTo [0, 1] S_
  slices_S256x96_S8x93_0_3 : S256x96.Slices ![0, 3] S8x93
  bcast_S_S8x93 : S_.BroadcastsInDim S8x93 (![] : Fin 0 → Fin S8x93.rank)
  reducesTo_S8x93_S_d0_1 : S8x93.ReducesTo [0, 1] S_
  slices_S256x96_S248x3_8_0 : S256x96.Slices ![8, 0] S248x3
  bcast_S_S248x3 : S_.BroadcastsInDim S248x3 (![] : Fin 0 → Fin S248x3.rank)
  reducesTo_S248x3_S_d0_1 : S248x3.ReducesTo [0, 1] S_
  slices_S256x96_S248x93_8_3 : S256x96.Slices ![8, 3] S248x93
  slices_S256x96_S248x93_0_0 : S256x96.Slices ![0, 0] S248x93
  reducesTo_S248x93_S_d0_1 : S248x93.ReducesTo [0, 1] S_
  slices_S4x256_S3x256_0_0 : S4x256.Slices ![0, 0] S3x256
  slices_S3x256_S3x248_0_8 : S3x256.Slices ![0, 8] S3x248
  slices_S3x256_S3x248_0_0 : S3x256.Slices ![0, 0] S3x248
  reducesTo_S3x248_S_d0_1 : S3x248.ReducesTo [0, 1] S_
  slices_S4x256_S1x96_3_0 : S4x256.Slices ![3, 0] S1x96
  slices_S1x96_S1x93_0_3 : S1x96.Slices ![0, 3] S1x93
  slices_S1x96_S1x93_0_0 : S1x96.Slices ![0, 0] S1x93
  reducesTo_S1x93_S_d0_1 : S1x93.ReducesTo [0, 1] S_

variable [Facts]

def fn_part5 {F : FTy → Type} [FloatOps F] (main_arg5 : FVec F S4x256 .f32) (main_v73 : IVec S_ 1) (main_v87 : IVec S_ 1) : IVec S_ 1 :=
  let main_v88 : IVec S_ 1 := andi main_v73 main_v87
  let main_v89 : FVec F S3x256 .f32 := (extractStridedSlice S3x256 ![0, 0] · slices_S4x256_S3x256_0_0) main_arg5
  let main_v90 : FVec F S3x248 .f32 := (extractStridedSlice S3x248 ![0, 8] · slices_S3x256_S3x248_0_8) main_v89
  let main_v91 : FVec F S3x248 .f32 := (extractStridedSlice S3x248 ![0, 0] · slices_S3x256_S3x248_0_0) main_v89
  let main_v92 : IVec S3x248 1 := cmpf .oeq main_v90 main_v91
  let main_c_30 : IVec S_ 1 := constantI S_ 1 1#1
  let main_v93 : IVec S_ 1 := (fun x v => Host.reduce IntOp.andi x v reducesTo_S3x248_S_d0_1 h_S_) main_v92 main_c_30
  let main_v94 : IVec S_ 1 := andi main_v88 main_v93
  let main_v95 : FVec F S1x96 .f32 := (extractStridedSlice S1x96 ![3, 0] · slices_S4x256_S1x96_3_0) main_arg5
  let main_v96 : FVec F S1x93 .f32 := (extractStridedSlice S1x93 ![0, 3] · slices_S1x96_S1x93_0_3) main_v95
  let main_v97 : FVec F S1x93 .f32 := (extractStridedSlice S1x93 ![0, 0] · slices_S1x96_S1x93_0_0) main_v95
  let main_v98 : IVec S1x93 1 := cmpf .oeq main_v96 main_v97
  let main_c_31 : IVec S_ 1 := constantI S_ 1 1#1
  let main_v99 : IVec S_ 1 := (fun x v => Host.reduce IntOp.andi x v reducesTo_S1x93_S_d0_1 h_S_) main_v98 main_c_31
  let main_v100 : IVec S_ 1 := andi main_v94 main_v99
  main_v100

def fn_part4 {F : FTy → Type} [FloatOps F] (main_arg4 : FVec F S256x96 .f32) (main_arg5 : FVec F S4x256 .f32) (main_v58 : IVec S_ 1) (main_v67 : IVec S_ 1) (main_v68 : FVec F S248x248 .f32) (main_v69 : FVec F S248x248 .f32) : IVec S_ 1 :=
  let main_v70 : IVec S248x248 1 := cmpf .oeq main_v68 main_v69
  let main_c_24 : IVec S_ 1 := constantI S_ 1 1#1
  let main_v71 : IVec S_ 1 := (fun x v => Host.reduce IntOp.andi x v reducesTo_S248x248_S_d0_1 h_S_) main_v70 main_c_24
  let main_v72 : IVec S_ 1 := andi main_v67 main_v71
  let main_v73 : IVec S_ 1 := andi main_v58 main_v72
  let main_v74 : FVec F S8x93 .f32 := (extractStridedSlice S8x93 ![0, 3] · slices_S256x96_S8x93_0_3) main_arg4
  let main_cst_25 : FVec F S_ .f32 := constant S_ .f32 0x00000000#32
  let main_v75 : FVec F S8x93 .f32 := broadcastInDim S8x93 ![] bcast_S_S8x93 main_cst_25
  let main_v76 : IVec S8x93 1 := cmpf .oeq main_v74 main_v75
  let main_c_26 : IVec S_ 1 := constantI S_ 1 1#1
  let main_v77 : IVec S_ 1 := (fun x v => Host.reduce IntOp.andi x v reducesTo_S8x93_S_d0_1 h_S_) main_v76 main_c_26
  let main_v78 : FVec F S248x3 .f32 := (extractStridedSlice S248x3 ![8, 0] · slices_S256x96_S248x3_8_0) main_arg4
  let main_cst_27 : FVec F S_ .f32 := constant S_ .f32 0x00000000#32
  let main_v79 : FVec F S248x3 .f32 := broadcastInDim S248x3 ![] bcast_S_S248x3 main_cst_27
  let main_v80 : IVec S248x3 1 := cmpf .oeq main_v78 main_v79
  let main_c_28 : IVec S_ 1 := constantI S_ 1 1#1
  let main_v81 : IVec S_ 1 := (fun x v => Host.reduce IntOp.andi x v reducesTo_S248x3_S_d0_1 h_S_) main_v80 main_c_28
  let main_v82 : IVec S_ 1 := andi main_v77 main_v81
  let main_v83 : FVec F S248x93 .f32 := (extractStridedSlice S248x93 ![8, 3] · slices_S256x96_S248x93_8_3) main_arg4
  let main_v84 : FVec F S248x93 .f32 := (extractStridedSlice S248x93 ![0, 0] · slices_S256x96_S248x93_0_0) main_arg4
  let main_v85 : IVec S248x93 1 := cmpf .oeq main_v83 main_v84
  let main_c_29 : IVec S_ 1 := constantI S_ 1 1#1
  let main_v86 : IVec S_ 1 := (fun x v => Host.reduce IntOp.andi x v reducesTo_S248x93_S_d0_1 h_S_) main_v85 main_c_29
  let main_v87 : IVec S_ 1 := andi main_v82 main_v86
  fn_part5 (F := F) main_arg5 main_v73 main_v87

def fn_part3 {F : FTy → Type} [FloatOps F] (main_arg2 : FVec F S256x256 .f32) (main_arg3 : FVec F S256x256 .f32) (main_arg4 : FVec F S256x96 .f32) (main_arg5 : FVec F S4x256 .f32) (main_v43 : IVec S_ 1) (main_v47 : IVec S_ 1) (main_v50 : IVec S248x8 1) (main_c_18 : IVec S_ 1) : IVec S_ 1 :=
  let main_v51 : IVec S_ 1 := (fun x v => Host.reduce IntOp.andi x v reducesTo_S248x8_S_d0_1 h_S_) main_v50 main_c_18
  let main_v52 : IVec S_ 1 := andi main_v47 main_v51
  let main_v53 : FVec F S248x248 .f32 := (extractStridedSlice S248x248 ![8, 8] · slices_S256x256_S248x248_8_8) main_arg2
  let main_v54 : FVec F S248x248 .f32 := (extractStridedSlice S248x248 ![0, 0] · slices_S256x256_S248x248_0_0) main_arg2
  let main_v55 : IVec S248x248 1 := cmpf .oeq main_v53 main_v54
  let main_c_19 : IVec S_ 1 := constantI S_ 1 1#1
  let main_v56 : IVec S_ 1 := (fun x v => Host.reduce IntOp.andi x v reducesTo_S248x248_S_d0_1 h_S_) main_v55 main_c_19
  let main_v57 : IVec S_ 1 := andi main_v52 main_v56
  let main_v58 : IVec S_ 1 := andi main_v43 main_v57
  let main_v59 : FVec F S8x248 .f32 := (extractStridedSlice S8x248 ![0, 8] · slices_S256x256_S8x248_0_8) main_arg3
  let main_cst_20 : FVec F S_ .f32 := constant S_ .f32 0x00000000#32
  let main_v60 : FVec F S8x248 .f32 := broadcastInDim S8x248 ![] bcast_S_S8x248 main_cst_20
  let main_v61 : IVec S8x248 1 := cmpf .oeq main_v59 main_v60
  let main_c_21 : IVec S_ 1 := constantI S_ 1 1#1
  let main_v62 : IVec S_ 1 := (fun x v => Host.reduce IntOp.andi x v reducesTo_S8x248_S_d0_1 h_S_) main_v61 main_c_21
  let main_v63 : FVec F S248x8 .f32 := (extractStridedSlice S248x8 ![8, 0] · slices_S256x256_S248x8_8_0) main_arg3
  let main_cst_22 : FVec F S_ .f32 := constant S_ .f32 0x00000000#32
  let main_v64 : FVec F S248x8 .f32 := broadcastInDim S248x8 ![] bcast_S_S248x8 main_cst_22
  let main_v65 : IVec S248x8 1 := cmpf .oeq main_v63 main_v64
  let main_c_23 : IVec S_ 1 := constantI S_ 1 1#1
  let main_v66 : IVec S_ 1 := (fun x v => Host.reduce IntOp.andi x v reducesTo_S248x8_S_d0_1 h_S_) main_v65 main_c_23
  let main_v67 : IVec S_ 1 := andi main_v62 main_v66
  let main_v68 : FVec F S248x248 .f32 := (extractStridedSlice S248x248 ![8, 8] · slices_S256x256_S248x248_8_8) main_arg3
  let main_v69 : FVec F S248x248 .f32 := (extractStridedSlice S248x248 ![0, 0] · slices_S256x256_S248x248_0_0) main_arg3
  fn_part4 (F := F) main_arg4 main_arg5 main_v58 main_v67 main_v68 main_v69

def fn_part2 {F : FTy → Type} [FloatOps F] (main_arg1 : FVec F S128x256 .f32) (main_arg2 : FVec F S256x256 .f32) (main_arg3 : FVec F S256x256 .f32) (main_arg4 : FVec F S256x96 .f32) (main_arg5 : FVec F S4x256 .f32) (main_v28 : IVec S_ 1) (main_v32 : IVec S_ 1) (main_v33 : FVec F S124x8 .f32) : IVec S_ 1 :=
  let main_cst_12 : FVec F S_ .f32 := constant S_ .f32 0x00000000#32
  let main_v34 : FVec F S124x8 .f32 := broadcastInDim S124x8 ![] bcast_S_S124x8 main_cst_12
  let main_v35 : IVec S124x8 1 := cmpf .oeq main_v33 main_v34
  let main_c_13 : IVec S_ 1 := constantI S_ 1 1#1
  let main_v36 : IVec S_ 1 := (fun x v => Host.reduce IntOp.andi x v reducesTo_S124x8_S_d0_1 h_S_) main_v35 main_c_13
  let main_v37 : IVec S_ 1 := andi main_v32 main_v36
  let main_v38 : FVec F S124x248 .f32 := (extractStridedSlice S124x248 ![4, 8] · slices_S128x256_S124x248_4_8) main_arg1
  let main_v39 : FVec F S124x248 .f32 := (extractStridedSlice S124x248 ![0, 0] · slices_S128x256_S124x248_0_0) main_arg1
  let main_v40 : IVec S124x248 1 := cmpf .oeq main_v38 main_v39
  let main_c_14 : IVec S_ 1 := constantI S_ 1 1#1
  let main_v41 : IVec S_ 1 := (fun x v => Host.reduce IntOp.andi x v reducesTo_S124x248_S_d0_1 h_S_) main_v40 main_c_14
  let main_v42 : IVec S_ 1 := andi main_v37 main_v41
  let main_v43 : IVec S_ 1 := andi main_v28 main_v42
  let main_v44 : FVec F S8x248 .f32 := (extractStridedSlice S8x248 ![0, 8] · slices_S256x256_S8x248_0_8) main_arg2
  let main_cst_15 : FVec F S_ .f32 := constant S_ .f32 0x00000000#32
  let main_v45 : FVec F S8x248 .f32 := broadcastInDim S8x248 ![] bcast_S_S8x248 main_cst_15
  let main_v46 : IVec S8x248 1 := cmpf .oeq main_v44 main_v45
  let main_c_16 : IVec S_ 1 := constantI S_ 1 1#1
  let main_v47 : IVec S_ 1 := (fun x v => Host.reduce IntOp.andi x v reducesTo_S8x248_S_d0_1 h_S_) main_v46 main_c_16
  let main_v48 : FVec F S248x8 .f32 := (extractStridedSlice S248x8 ![8, 0] · slices_S256x256_S248x8_8_0) main_arg2
  let main_cst_17 : FVec F S_ .f32 := constant S_ .f32 0x00000000#32
  let main_v49 : FVec F S248x8 .f32 := broadcastInDim S248x8 ![] bcast_S_S248x8 main_cst_17
  let main_v50 : IVec S248x8 1 := cmpf .oeq main_v48 main_v49
  let main_c_18 : IVec S_ 1 := constantI S_ 1 1#1
  fn_part3 (F := F) main_arg2 main_arg3 main_arg4 main_arg5 main_v43 main_v47 main_v50 main_c_18

def fn_part1 {F : FTy → Type} [FloatOps F] (main_arg1 : FVec F S128x256 .f32) (main_arg2 : FVec F S256x256 .f32) (main_arg3 : FVec F S256x256 .f32) (main_arg4 : FVec F S256x96 .f32) (main_arg5 : FVec F S4x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x96 .f32 := Host.absf main_arg4
  let main_cst_6 : FVec F S_ .f32 := constant S_ .f32 0x7F800000#32
  let main_v20 : FVec F S256x96 .f32 := broadcastInDim S256x96 ![] bcast_S_S256x96 main_cst_6
  let main_v21 : IVec S256x96 1 := cmpf .olt main_v19 main_v20
  let main_c_7 : IVec S_ 1 := constantI S_ 1 1#1
  let main_v22 : IVec S_ 1 := (fun x v => Host.reduce IntOp.andi x v reducesTo_S256x96_S_d0_1 h_S_) main_v21 main_c_7
  let main_v23 : IVec S_ 1 := andi main_v18 main_v22
  let main_v24 : FVec F S4x256 .f32 := Host.absf main_arg5
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x248 .f32 := (extractStridedSlice S4x248 ![0, 8] · slices_S128x256_S4x248_0_8) main_arg1
  let main_cst_10 : FVec F S_ .f32 := constant S_ .f32 0x00000000#32
  let main_v30 : FVec F S4x248 .f32 := broadcastInDim S4x248 ![] bcast_S_S4x248 main_cst_10
  let main_v31 : IVec S4x248 1 := cmpf .oeq main_v29 main_v30
  let main_c_11 : IVec S_ 1 := constantI S_ 1 1#1
  let main_v32 : IVec S_ 1 := (fun x v => Host.reduce IntOp.andi x v reducesTo_S4x248_S_d0_1 h_S_) main_v31 main_c_11
  let main_v33 : FVec F S124x8 .f32 := (extractStridedSlice S124x8 ![4, 0] · slices_S128x256_S124x8_4_0) main_arg1
  fn_part2 (F := F) main_arg1 main_arg2 main_arg3 main_arg4 main_arg5 main_v28 main_v32 main_v33

def fn {F : FTy → Type} [FloatOps F] (main_arg0 : FVec F S2097152x4 .f32) (main_arg1 : FVec F S128x256 .f32) (main_arg2 : FVec F S256x256 .f32) (main_arg3 : FVec F S256x256 .f32) (main_arg4 : FVec F S256x96 .f32) (main_arg5 : FVec F S4x256 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg2 main_arg3 main_arg4 main_arg5 main_v13 main_v16
-- ==== Kernel.lean ====
abbrev S2097152x4 : Shape := ⟨2, ![2097152, 4]⟩
abbrev S128x256 : Shape := ⟨2, ![128, 256]⟩
abbrev S256x256 : Shape := ⟨2, ![256, 256]⟩
abbrev S256x96 : Shape := ⟨2, ![256, 96]⟩
abbrev S4x256 : Shape := ⟨2, ![4, 256]⟩
abbrev S4x2097152 : Shape := ⟨2, ![4, 2097152]⟩
abbrev S96x256 : Shape := ⟨2, ![96, 256]⟩
abbrev S3x2097152 : Shape := ⟨2, ![3, 2097152]⟩
abbrev S4x262144 : Shape := ⟨2, ![4, 262144]⟩
abbrev S3x262144 : Shape := ⟨2, ![3, 262144]⟩
abbrev S4x8 : Shape := ⟨2, ![4, 8]⟩
abbrev S8x4 : Shape := ⟨2, ![8, 4]⟩
abbrev S8x8 : Shape := ⟨2, ![8, 8]⟩
abbrev S3x8 : Shape := ⟨2, ![3, 8]⟩
abbrev S8x262144 : Shape := ⟨2, ![8, 262144]⟩
abbrev S8x1 : Shape := ⟨2, ![8, 1]⟩
abbrev S3x1 : Shape := ⟨2, ![3, 1]⟩
abbrev S2097152x3 : Shape := ⟨2, ![2097152, 3]⟩

abbrev nBuf : Space → Nat
  | .hbm => 10
  | .vmem => 9
  | .smem => 0
  | _ => 0

abbrev bufTy : (tb : Table) → Fin (tcTables nBuf tb) → BufTy
  | .hbm, ⟨0, _⟩ => ⟨S2097152x4, .f32⟩
  | .hbm, ⟨1, _⟩ => ⟨S128x256, .f32⟩
  | .hbm, ⟨2, _⟩ => ⟨S256x256, .f32⟩
  | .hbm, ⟨3, _⟩ => ⟨S256x256, .f32⟩
  | .hbm, ⟨4, _⟩ => ⟨S256x96, .f32⟩
  | .hbm, ⟨5, _⟩ => ⟨S4x256, .f32⟩
  | .hbm, ⟨6, _⟩ => ⟨S4x2097152, .f32⟩
  | .hbm, ⟨7, _⟩ => ⟨S96x256, .f32⟩
  | .hbm, ⟨8, _⟩ => ⟨S3x2097152, .f32⟩
  | .hbm, ⟨9, _⟩ => ⟨S2097152x3, .f32⟩
  | .local _ .vmem, ⟨0, _⟩ => ⟨S4x262144, .f32⟩
  | .local _ .vmem, ⟨1, _⟩ => ⟨S4x262144, .f32⟩
  | .local _ .vmem, ⟨2, _⟩ => ⟨S128x256, .f32⟩
  | .local _ .vmem, ⟨3, _⟩ => ⟨S256x256, .f32⟩
  | .local _ .vmem, ⟨4, _⟩ => ⟨S256x256, .f32⟩
  | .local _ .vmem, ⟨5, _⟩ => ⟨S96x256, .f32⟩
  | .local _ .vmem, ⟨6, _⟩ => ⟨S4x256, .f32⟩
  | .local _ .vmem, ⟨7, _⟩ => ⟨S3x262144, .f32⟩
  | .local _ .vmem, ⟨8, _⟩ => ⟨S3x262144, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x262144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S2097152x4_S4x2097152_1_0 : S2097152x4.Transposes [1, 0] S4x2097152
  transposes_S256x96_S96x256_1_0 : S256x96.Transposes [1, 0] S96x256
  inb_S128x256_S4x8_0_0 : ∀ a, (![0, 0] : Fin 2 → Nat) a + S4x8.size a ≤ S128x256.size a
  h_S4x8 : 0 < S4x8.numel
  transposes_S4x8_p1_0_S8x4 : S4x8.Transposes [1, 0] S8x4
  inb_S256x256_S8x8_0_0 : ∀ a, (![0, 0] : Fin 2 → Nat) a + S8x8.size a ≤ S256x256.size a
  h_S8x8 : 0 < S8x8.numel
  transposes_S8x8_p1_0_S8x8 : S8x8.Transposes [1, 0] S8x8
  inb_S96x256_S3x8_0_0 : ∀ a, (![0, 0] : Fin 2 → Nat) a + S3x8.size a ≤ S96x256.size a
  h_S3x8 : 0 < S3x8.numel
  shapeCasts_S3x8_S3x8 : S3x8.ShapeCasts S3x8
  inb_S4x256_S4x8_0_0 : ∀ a, (![0, 0] : Fin 2 → Nat) a + S4x8.size a ≤ S4x256.size a
  inb_S4x262144_S4x262144_0_0 : ∀ a, (![0, 0] : Fin 2 → Nat) a + S4x262144.size a ≤ S4x262144.size a
  h_S4x262144 : 0 < S4x262144.numel
  shapeCasts_S4x262144_S4x262144 : S4x262144.ShapeCasts S4x262144
  slices_S8x4_o0_0_S8x1 : S8x4.Slices ![0, 0] S8x1
  broadcasts_S8x1_S8x262144 : S8x1.Broadcasts S8x262144
  slices_S8x4_o0_1_S8x1 : S8x4.Slices ![0, 1] S8x1
  slices_S8x4_o0_2_S8x1 : S8x4.Slices ![0, 2] S8x1
  slices_S8x4_o0_3_S3x1 : S8x4.Slices ![0, 3] S3x1
  broadcasts_S3x1_S3x262144 : S3x1.Broadcasts S3x262144
  inb_S3x262144_S3x262144_0_0 : ∀ a, (![0, 0] : Fin 2 → Nat) a + S3x262144.size a ≤ S3x262144.size a
  h_S3x262144 : 0 < S3x262144.numel
  transposes_S3x2097152_S2097152x3_1_0 : S3x2097152.Transposes [1, 0] S2097152x3
  dot_S8x4_S4x262144_S8x262144_1_0_0_1_n_n_wf : DotDims.WF S8x4 S4x262144 S8x262144 [1] [0] [0] [1] [] []
  dot_S8x8_S8x262144_S8x262144_1_0_0_1_n_n_wf : DotDims.WF S8x8 S8x262144 S8x262144 [1] [0] [0] [1] [] []
  dot_S3x8_S8x262144_S3x262144_1_0_0_1_n_n_wf : DotDims.WF S3x8 S8x262144 S3x262144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x262144.size a ≤ S4x2097152.size a
  hwx0_0 : ∀ i : grid0.Coords, EltTy.bits .f32 = 32 ∨ (Rect.block (s := S4x2097152) S4x262144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x256.size a ≤ S96x256.size a
  hwx0_4 : ∀ i : grid0.Coords, EltTy.bits .f32 = 32 ∨ (Rect.block (s := S96x256) S96x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x262144.size a ≤ S3x2097152.size a
  hwx0_6 : ∀ i : grid0.Coords, EltTy.bits .f32 = 32 ∨ (Rect.block (s := S3x2097152) S3x262144.size (cc0_transform_6 i) (hinb0_6 i)).WholeWords (EltTy.packing .f32)

variable [Facts₀]

def dot_S8x4_S4x262144_S8x262144_1_0_0_1_n_n : DotDims S8x4 S4x262144 S8x262144 where
  lhsContracting := [1]
  rhsContracting := [0]
  lhsNonContracting := [0]
  rhsNonContracting := [1]
  lhsBatch := []
  rhsBatch := []
  wf := dot_S8x4_S4x262144_S8x262144_1_0_0_1_n_n_wf
def dot_S8x8_S8x262144_S8x262144_1_0_0_1_n_n : DotDims S8x8 S8x262144 S8x262144 where
  lhsContracting := [1]
  rhsContracting := [0]
  lhsNonContracting := [0]
  rhsNonContracting := [1]
  lhsBatch := []
  rhsBatch := []
  wf := dot_S8x8_S8x262144_S8x262144_1_0_0_1_n_n_wf
def dot_S3x8_S8x262144_S3x262144_1_0_0_1_n_n : DotDims S3x8 S8x262144 S3x262144 where
  lhsContracting := [1]
  rhsContracting := [0]
  lhsNonContracting := [0]
  rhsNonContracting := [1]
  lhsBatch := []
  rhsBatch := []
  wf := dot_S3x8_S8x262144_S3x262144_1_0_0_1_n_n_wf

abbrev win0_0 : Pipeline.Window sig grid0 :=
  Pipeline.Window.ofSpec (Memref.whole main_v0) S4x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S96x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S3x262144.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S128x256 : Shape := ⟨2, ![128, 256]⟩
abbrev S256x256 : Shape := ⟨2, ![256, 256]⟩
abbrev S256x96 : Shape := ⟨2, ![256, 96]⟩
abbrev S4x256 : Shape := ⟨2, ![4, 256]⟩
abbrev S65536x128 : Shape := ⟨2, ![65536, 128]⟩
abbrev S65536x96 : Shape := ⟨2, ![65536, 96]⟩
abbrev S1024x128 : Shape := ⟨2, ![1024, 128]⟩
abbrev S1024x96 : Shape := ⟨2, ![1024, 96]⟩
abbrev S1x256 : Shape := ⟨2, ![1, 256]⟩
abbrev S1x96 : Shape := ⟨2, ![1, 96]⟩
abbrev S1024x256 : Shape := ⟨2, ![1024, 256]⟩
abbrev S2097152x3 : Shape := ⟨2, ![2097152, 3]⟩

abbrev nBuf : Space → Nat
  | .hbm => 9
  | .vmem => 9
  | .smem => 0
  | _ => 0

abbrev bufTy : (tb : Table) → Fin (tcTables nBuf tb) → BufTy
  | .hbm, ⟨0, _⟩ => ⟨S2097152x4, .f32⟩
  | .hbm, ⟨1, _⟩ => ⟨S128x256, .f32⟩
  | .hbm, ⟨2, _⟩ => ⟨S256x256, .f32⟩
  | .hbm, ⟨3, _⟩ => ⟨S256x256, .f32⟩
  | .hbm, ⟨4, _⟩ => ⟨S256x96, .f32⟩
  | .hbm, ⟨5, _⟩ => ⟨S4x256, .f32⟩
  | .hbm, ⟨6, _⟩ => ⟨S65536x128, .f32⟩
  | .hbm, ⟨7, _⟩ => ⟨S65536x96, .f32⟩
  | .hbm, ⟨8, _⟩ => ⟨S2097152x3, .f32⟩
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S256x256, .f32⟩
  | .local _ .vmem, ⟨4, _⟩ => ⟨S256x256, .f32⟩
  | .local _ .vmem, ⟨5, _⟩ => ⟨S256x96, .f32⟩
  | .local _ .vmem, ⟨6, _⟩ => ⟨S4x256, .f32⟩
  | .local _ .vmem, ⟨7, _⟩ => ⟨S1024x96, .f32⟩
  | .local _ .vmem, ⟨8, _⟩ => ⟨S1024x96, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S2097152x4_S65536x128 : S2097152x4.ShapeCasts S65536x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S4x256_S1x256_0_0 : ∀ a, (![0, 0] : Fin 2 → Nat) a + S1x256.size a ≤ S4x256.size a
  h_S1x256 : 0 < S1x256.numel
  inb_S4x256_S1x256_1_0 : ∀ a, (![1, 0] : Fin 2 → Nat) a + S1x256.size a ≤ S4x256.size a
  inb_S4x256_S1x256_2_0 : ∀ a, (![2, 0] : Fin 2 → Nat) a + S1x256.size a ≤ S4x256.size a
  inb_S4x256_S1x96_3_0 : ∀ a, (![3, 0] : Fin 2 → Nat) a + S1x96.size a ≤ S4x256.size a
  h_S1x96 : 0 < S1x96.numel
  inb_S128x256_S128x256_0_0 : ∀ a, (![0, 0] : Fin 2 → Nat) a + S128x256.size a ≤ S128x256.size a
  h_S128x256 : 0 < S128x256.numel
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S256x96_S256x96_0_0 : ∀ a, (![0, 0] : Fin 2 → Nat) a + S256x96.size a ≤ S256x96.size a
  h_S256x96 : 0 < S256x96.numel
  broadcasts_S1x96_S1024x96 : S1x96.Broadcasts S1024x96
  inb_S1024x96_S1024x96_0_0 : ∀ a, (![0, 0] : Fin 2 → Nat) a + S1024x96.size a ≤ S1024x96.size a
  h_S1024x96 : 0 < S1024x96.numel
  shapeCasts_S65536x96_S2097152x3 : S65536x96.ShapeCasts S2097152x3
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S1024x256_S256x96_S1024x96_1_0_0_1_n_n_wf : DotDims.WF S1024x256 S256x96 S1024x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x96.size a ≤ S256x96.size a
  hwx0_4 : ∀ i : grid0.Coords, EltTy.bits .f32 = 32 ∨ (Rect.block (s := S256x96) S256x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x96.size a ≤ S65536x96.size a
  hwx0_6 : ∀ i : grid0.Coords, EltTy.bits .f32 = 32 ∨ (Rect.block (s := S65536x96) S1024x96.size (cc0_transform_6 i) (hinb0_6 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x96_S1024x96_1_0_0_1_n_n : DotDims S1024x256 S256x96 S1024x96 where
  lhsContracting := [1]
  rhsContracting := [0]
  lhsNonContracting := [0]
  rhsNonContracting := [1]
  lhsBatch := []
  rhsBatch := []
  wf := dot_S1024x256_S256x96_S1024x96_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.Spec.lean ====
/-
  The network both programs compute, as functions on the extended reals.

  The arguments are a batch X of 2097152 samples of 4 features, four weight operands M1 (128×256), M2, M3 (256×256),
  M4 (256×96) and a bias operand B (4×256). Only the corner block of each operand enters the per-sample form:
  with W_l(k, j) = M_l(k, j) for k, j inside the first block and b_l(j) = B(l, j), a sample x goes to

      h1(j) = max(Σ_k W1(k, j)·x(k) + b1(j), 0)         (k < 4, j < 8)
      h2(j) = max(Σ_k W2(k, j)·h1(k) + b2(j), 0)        (k, j < 8)
      h3(j) = max(Σ_k W3(k, j)·h2(k) + b3(j), 0)        (k, j < 8)
      out(j) =    Σ_k W4(k, j)·h3(k) + b4(j)            (k < 8, j < 3)

  (`hid1` … `outp`). The row form (`rhid1` … `routp`) lays 32 samples side by side in a row of 128 entries and multiplies
  by the WHOLE operands: 128 → 256 → 256 → 256 → 96 columns, column 8g+j (3g+j at the end) belonging to sample g of
  the row. The two forms agree when each operand is block diagonal with 32 copies of its corner block and each bias
  row repeats its first block (Algebra.lean).

  Entries are read through `at2`, by natural-number coordinates, so that sums over a few coordinates and block
  arithmetic (8g+j) need no bound proofs inside the formulas.
-/
import Idealize.ShloMosaic.Lib.ValueIdx
import Idealize.ShloMosaic.PureOps.Ideal

noncomputable section

namespace Cert.Spec

open Idealize.ShloMosaic Idealize.ShloMosaic.ValueIdx
open scoped BigOperators

/-- Entry (r, c) of an a×b array of extended reals by natural-number coordinates; zero outside the array. -/
def at2 {a b : Nat} (M : FVec Ideal ⟨2, ![a, b]⟩ .f32) (r c : Nat) : EReal :=
  if h : r < a ∧ c < b then M (ix2 ⟨r, h.1⟩ ⟨c, h.2⟩) else 0

theorem at2_of_lt {a b : Nat} (M : FVec Ideal ⟨2, ![a, b]⟩ .f32) {r c : Nat} (hr : r < a) (hc : c < b) :
    at2 M r c = M (ix2 ⟨r, hr⟩ ⟨c, hc⟩) := dif_pos ⟨hr, hc⟩

theorem at2_fin {a b : Nat} (M : FVec Ideal ⟨2, ![a, b]⟩ .f32) (r : Fin a) (c : Fin b) :
    at2 M r.val c.val = M (ix2 r c) := dif_pos ⟨r.isLt, c.isLt⟩

/-- The rectifier's threshold: the value of the f32 zero word. -/
def zero : EReal := Ideal.ofBits .f32 0x00000000#32

section layers

/- `w_l k j`: weight from input coordinate k to output coordinate j of layer l; `b l j`: bias of layer l+1 at j. -/
variable (w1 w2 w3 w4 b : Nat → Nat → EReal)

/-! ### One sample at a time (x: the sample's four features) -/

def hid1 (x : Nat → EReal) (j : Nat) : EReal := max ((∑ k : Fin 4, w1 k.val j * x k.val) + b 0 j) zero
def hid2 (x : Nat → EReal) (j : Nat) : EReal := max ((∑ k : Fin 8, w2 k.val j * hid1 w1 b x k.val) + b 1 j) zero
def hid3 (x : Nat → EReal) (j : Nat) : EReal := max ((∑ k : Fin 8, w3 k.val j * hid2 w1 w2 b x k.val) + b 2 j) zero
def outp (x : Nat → EReal) (j : Nat) : EReal := (∑ k : Fin 8, w4 k.val j * hid3 w1 w2 w3 b x k.val) + b 3 j

/-! ### One row of 32 samples at a time (xr: the row's 128 entries, sample g at 4g … 4g+3) -/

def rhid1 (xr : Nat → EReal) (c : Nat) : EReal := max ((∑ q : Fin 128, xr q.val * w1 q.val c) + b 0 c) zero
def rhid2 (xr : Nat → EReal) (c : Nat) : EReal := max ((∑ q : Fin 256, rhid1 w1 b xr q.val * w2 q.val c) + b 1 c) zero
def rhid3 (xr : Nat → EReal) (c : Nat) : EReal := max ((∑ q : Fin 256, rhid2 w1 w2 b xr q.val * w3 q.val c) + b 2 c) zero
def routp (xr : Nat → EReal) (c : Nat) : EReal := (∑ q : Fin 256, rhid3 w1 w2 w3 b xr q.val * w4 q.val c) + b 3 c

end layers

abbrev Arr (a b : Nat) : Type := FVec Ideal ⟨2, ![a, b]⟩ .f32

/-- The result sample by sample: entry (s, j) is output j of the network on sample s, weights and biases from the
    operands' corner blocks. -/
def G (X : Arr 2097152 4) (M1 : Arr 128 256) (M2 M3 : Arr 256 256) (M4 : Arr 256 96) (B : Arr 4 256) : Arr 2097152 3 :=
  fun i => outp (at2 M1) (at2 M2) (at2 M3) (at2 M4) (at2 B) (fun k => at2 X (i 0).val k) (i 1).val

/-- The result row by row: sample s is sample s % 32 of row s / 32; the row's entries are X's, four per sample, and
    the sample's outputs are the row result's columns 3·(s % 32) … 3·(s % 32) + 2. -/
def Grow (X : Arr 2097152 4) (M1 : Arr 128 256) (M2 M3 : Arr 256 256) (M4 : Arr 256 96) (B : Arr 4 256) : Arr 2097152 3 :=
  fun i => routp (at2 M1) (at2 M2) (at2 M3) (at2 M4) (at2 B)
    (fun q => at2 X (32 * ((i 0).val / 32) + q / 4) (q % 4)) (3 * ((i 0).val % 32) + (i 1).val)

/-- What the operands are assumed to be: each weight operand is block diagonal with 32 copies of its corner block,
    each bias row repeats its first block. `g`, `g'` number the blocks. -/
structure Packed (M1 : Arr 128 256) (M2 M3 : Arr 256 256) (M4 : Arr 256 96) (B : Arr 4 256) : Prop where
  m1 : ∀ g g' k j : Nat, g < 32 → g' < 32 → k < 4 → j < 8 →
    at2 M1 (4 * g + k) (8 * g' + j) = if g = g' then at2 M1 k j else 0
  m2 : ∀ g g' k j : Nat, g < 32 → g' < 32 → k < 8 → j < 8 →
    at2 M2 (8 * g + k) (8 * g' + j) = if g = g' then at2 M2 k j else 0
  m3 : ∀ g g' k j : Nat, g < 32 → g' < 32 → k < 8 → j < 8 →
    at2 M3 (8 * g + k) (8 * g' + j) = if g = g' then at2 M3 k j else 0
  m4 : ∀ g g' k j : Nat, g < 32 → g' < 32 → k < 8 → j < 3 →
    at2 M4 (8 * g + k) (3 * g' + j) = if g = g' then at2 M4 k j else 0
  b123 : ∀ l g j : Nat, l < 3 → g < 32 → j < 8 → at2 B l (8 * g + j) = at2 B l j
  b4 : ∀ g j : Nat, g < 32 → j < 3 → at2 B 3 (3 * g + j) = at2 B 3 j

end Cert.Spec

end
-- ==== Proof.SpecCongr.lean ====
/-
  The layers depend on their weights, biases and inputs only through the entries they read: the per-sample form reads
  the corner blocks (4×8, 8×8, 8×8, 8×3 and the first 8, resp. 3, bias entries), the row form the whole operands
  (128×256, 256×256, 256×256, 256×96 and the first 256, resp. 96, bias entries).
-/
import proofs.«145751_g2000606264827696_pallasbulk_793_13_alg».proof.Proof.Spec

noncomputable section

namespace Cert.Spec

open scoped BigOperators

variable {w1 w2 w3 w4 b w1' w2' w3' w4' b' : Nat → Nat → EReal}

section sample

variable {x x' : Nat → EReal}

theorem hid1_congr (h1 : ∀ k j, k < 4 → j < 8 → w1 k j = w1' k j) (hb : ∀ l j, l < 3 → j < 8 → b l j = b' l j)
    (hx : ∀ k, k < 4 → x k = x' k) {j : Nat} (hj : j < 8) : hid1 w1 b x j = hid1 w1' b' x' j := by
  have hs : (∑ k : Fin 4, w1 k.val j * x k.val) = ∑ k : Fin 4, w1' k.val j * x' k.val :=
    Finset.sum_congr rfl fun k _ => by rw [h1 k.val j k.isLt hj, hx k.val k.isLt]
  unfold hid1
  rw [hs, hb 0 j (by omega) hj]

theorem hid2_congr (h1 : ∀ k j, k < 4 → j < 8 → w1 k j = w1' k j) (h2 : ∀ k j, k < 8 → j < 8 → w2 k j = w2' k j)
    (hb : ∀ l j, l < 3 → j < 8 → b l j = b' l j) (hx : ∀ k, k < 4 → x k = x' k) {j : Nat} (hj : j < 8) :
    hid2 w1 w2 b x j = hid2 w1' w2' b' x' j := by
  have hs : (∑ k : Fin 8, w2 k.val j * hid1 w1 b x k.val) = ∑ k : Fin 8, w2' k.val j * hid1 w1' b' x' k.val :=
    Finset.sum_congr rfl fun k _ => by rw [h2 k.val j k.isLt hj, hid1_congr h1 hb hx k.isLt]
  unfold hid2
  rw [hs, hb 1 j (by omega) hj]

theorem hid3_congr (h1 : ∀ k j, k < 4 → j < 8 → w1 k j = w1' k j) (h2 : ∀ k j, k < 8 → j < 8 → w2 k j = w2' k j)
    (h3 : ∀ k j, k < 8 → j < 8 → w3 k j = w3' k j) (hb : ∀ l j, l < 3 → j < 8 → b l j = b' l j)
    (hx : ∀ k, k < 4 → x k = x' k) {j : Nat} (hj : j < 8) : hid3 w1 w2 w3 b x j = hid3 w1' w2' w3' b' x' j := by
  have hs : (∑ k : Fin 8, w3 k.val j * hid2 w1 w2 b x k.val) = ∑ k : Fin 8, w3' k.val j * hid2 w1' w2' b' x' k.val :=
    Finset.sum_congr rfl fun k _ => by rw [h3 k.val j k.isLt hj, hid2_congr h1 h2 hb hx k.isLt]
  unfold hid3
  rw [hs, hb 2 j (by omega) hj]

/-- The per-sample output depends only on the corner blocks, the first bias entries and the sample's four features. -/
theorem outp_congr (h1 : ∀ k j, k < 4 → j < 8 → w1 k j = w1' k j) (h2 : ∀ k j, k < 8 → j < 8 → w2 k j = w2' k j)
    (h3 : ∀ k j, k < 8 → j < 8 → w3 k j = w3' k j) (h4 : ∀ k j, k < 8 → j < 3 → w4 k j = w4' k j)
    (hb : ∀ l j, l < 3 → j < 8 → b l j = b' l j) (hb4 : ∀ j, j < 3 → b 3 j = b' 3 j)
    (hx : ∀ k, k < 4 → x k = x' k) {j : Nat} (hj : j < 3) :
    outp w1 w2 w3 w4 b x j = outp w1' w2' w3' w4' b' x' j := by
  have hs : (∑ k : Fin 8, w4 k.val j * hid3 w1 w2 w3 b x k.val) = ∑ k : Fin 8, w4' k.val j * hid3 w1' w2' w3' b' x' k.val :=
    Finset.sum_congr rfl fun k _ => by rw [h4 k.val j k.isLt hj, hid3_congr h1 h2 h3 hb hx k.isLt]
  unfold outp
  rw [hs, hb4 j hj]

end sample

section row

variable {xr xr' : Nat → EReal}

theorem rhid1_congr (h1 : ∀ q c, q < 128 → c < 256 → w1 q c = w1' q c) (hb : ∀ l c, l < 3 → c < 256 → b l c = b' l c)
    (hx : ∀ q, q < 128 → xr q = xr' q) {c : Nat} (hc : c < 256) : rhid1 w1 b xr c = rhid1 w1' b' xr' c := by
  have hs : (∑ q : Fin 128, xr q.val * w1 q.val c) = ∑ q : Fin 128, xr' q.val * w1' q.val c :=
    Finset.sum_congr rfl fun q _ => by rw [h1 q.val c q.isLt hc, hx q.val q.isLt]
  unfold rhid1
  rw [hs, hb 0 c (by omega) hc]

theorem rhid2_congr (h1 : ∀ q c, q < 128 → c < 256 → w1 q c = w1' q c) (h2 : ∀ q c, q < 256 → c < 256 → w2 q c = w2' q c)
    (hb : ∀ l c, l < 3 → c < 256 → b l c = b' l c) (hx : ∀ q, q < 128 → xr q = xr' q) {c : Nat} (hc : c < 256) :
    rhid2 w1 w2 b xr c = rhid2 w1' w2' b' xr' c := by
  have hs : (∑ q : Fin 256, rhid1 w1 b xr q.val * w2 q.val c) = ∑ q : Fin 256, rhid1 w1' b' xr' q.val * w2' q.val c :=
    Finset.sum_congr rfl fun q _ => by rw [h2 q.val c q.isLt hc, rhid1_congr h1 hb hx q.isLt]
  unfold rhid2
  rw [hs, hb 1 c (by omega) hc]

theorem rhid3_congr (h1 : ∀ q c, q < 128 → c < 256 → w1 q c = w1' q c) (h2 : ∀ q c, q < 256 → c < 256 → w2 q c = w2' q c)
    (h3 : ∀ q c, q < 256 → c < 256 → w3 q c = w3' q c) (hb : ∀ l c, l < 3 → c < 256 → b l c = b' l c)
    (hx : ∀ q, q < 128 → xr q = xr' q) {c : Nat} (hc : c < 256) :
    rhid3 w1 w2 w3 b xr c = rhid3 w1' w2' w3' b' xr' c := by
  have hs : (∑ q : Fin 256, rhid2 w1 w2 b xr q.val * w3 q.val c) = ∑ q : Fin 256, rhid2 w1' w2' b' xr' q.val * w3' q.val c :=
    Finset.sum_congr rfl fun q _ => by rw [h3 q.val c q.isLt hc, rhid2_congr h1 h2 hb hx q.isLt]
  unfold rhid3
  rw [hs, hb 2 c (by omega) hc]

/-- The row form's output depends only on the operands' entries, the bias rows' first 256 (resp. 96) entries and the
    row's 128 entries. -/
theorem routp_congr (h1 : ∀ q c, q < 128 → c < 256 → w1 q c = w1' q c) (h2 : ∀ q c, q < 256 → c < 256 → w2 q c = w2' q c)
    (h3 : ∀ q c, q < 256 → c < 256 → w3 q c = w3' q c) (h4 : ∀ q c, q < 256 → c < 96 → w4 q c = w4' q c)
    (hb : ∀ l c, l < 3 → c < 256 → b l c = b' l c) (hb4 : ∀ c, c < 96 → b 3 c = b' 3 c)
    (hx : ∀ q, q < 128 → xr q = xr' q) {c : Nat} (hc : c < 96) :
    routp w1 w2 w3 w4 b xr c = routp w1' w2' w3' w4' b' xr' c := by
  have hs : (∑ q : Fin 256, rhid3 w1 w2 w3 b xr q.val * w4 q.val c) = ∑ q : Fin 256, rhid3 w1' w2' w3' b' xr' q.val * w4' q.val c :=
    Finset.sum_congr rfl fun q _ => by rw [h4 q.val c q.isLt hc, rhid3_congr h1 h2 h3 hb hx q.isLt]
  unfold routp
  rw [hs, hb4 c hc]

end row

end Cert.Spec

end
-- ==== Proof.LibFinTiles.lean ====
import Idealize.ShloMosaic.Lib.ValueIdx

/-! # A sum over `Fin n` taken tile by tile

When `n = a · b`, the positions below `n` are the positions `i · b + p` of `a` consecutive tiles of `b` positions
(division with remainder), so a sum over `Fin n` is the sum over the tiles of the sums over each tile's positions. The
position map `r` is a parameter, known only through its values, so that a caller's own indexing of the tiles can be
used as it stands. Stated for any commutative additive monoid: only commutativity and associativity of addition are
used (so it applies on the extended reals, where nothing may be cancelled). -/

namespace Cert.FinTiles

open scoped BigOperators

/-- A sum over `a · b` positions taken tile by tile. Position `r i p` is `i · b + p`; every position below `a · b` is
`i · b + p` for exactly one tile `i < a` and one offset `p < b`, so the two sides add the same terms. -/
theorem sum_fin_tiles {M : Type} [AddCommMonoid M] (a b n : ℕ) (h : a * b = n) (f : Fin n → M)
    (r : Fin a → Fin b → Fin n) (hr : ∀ i p, (r i p).val = i.val * b + p.val) :
    ∑ x : Fin n, f x = ∑ i : Fin a, ∑ p : Fin b, f (r i p) := by
  subst h
  refine (Equiv.sum_comp (finProdFinEquiv (m := a) (n := b)) f).symm.trans ?_
  rw [Fintype.sum_prod_type]
  refine Finset.sum_congr rfl fun i _ => Finset.sum_congr rfl fun p _ => ?_
  refine congrArg f (Fin.ext ?_)
  rw [hr, finProdFinEquiv_apply_val]
  show p.val + b * i.val = i.val * b + p.val
  rw [Nat.mul_comm, Nat.add_comm]

end Cert.FinTiles
-- ==== Proof.LibOneBlock.lean ====
import proofs.«145751_g2000606264827696_pallasbulk_793_13_alg».proof.Proof.LibFinTiles

/-! # A sum over blocks whose terms vanish outside one block

`N = n · a` positions are `n` consecutive blocks of `a` positions, position `a · g' + k` being offset `k` of block `g'`.
If the terms vanish at every position outside block `g`, the sum over all `N` positions is the sum over block `g`'s
`a` positions. This is what a product of a row with a column of a block-diagonal matrix comes to: the column is zero
outside one block. Stated for any commutative additive monoid (only commutativity and associativity of addition are
used, so it applies on the extended reals), with the terms given as a function of the natural-number position. -/

namespace Cert.OneBlock

open scoped BigOperators

/-- A sum over `n` blocks of `a` positions whose terms vanish outside block `g` is the sum over block `g`. -/
theorem sum_one_block {M : Type} [AddCommMonoid M] (n a N : ℕ) (hN : n * a = N) (g : ℕ) (hg : g < n) (F : ℕ → M)
    (hF : ∀ g' k, g' < n → k < a → g' ≠ g → F (a * g' + k) = 0) :
    ∑ q : Fin N, F q.val = ∑ k : Fin a, F (a * g + k.val) := by
  have hr : ∀ (i : Fin n) (p : Fin a), i.val * a + p.val < N := by
    intro i p
    have h1 : i.val * a + p.val < (i.val + 1) * a := by
      rw [Nat.add_mul, Nat.one_mul]; have := p.isLt; omega
    exact Nat.lt_of_lt_of_le h1 (hN ▸ Nat.mul_le_mul_right a i.isLt)
  rw [Cert.FinTiles.sum_fin_tiles n a N hN (fun q => F q.val) (fun i p => ⟨i.val * a + p.val, hr i p⟩) (fun _ _ => rfl)]
  rw [Finset.sum_eq_single (⟨g, hg⟩ : Fin n)]
  · refine Finset.sum_congr rfl fun k _ => ?_
    show F (g * a + k.val) = F (a * g + k.val)
    rw [Nat.mul_comm]
  · intro i _ hi
    refine Finset.sum_eq_zero fun p _ => ?_
    show F (i.val * a + p.val) = 0
    rw [Nat.mul_comm]
    exact hF i.val p.val i.isLt p.isLt (fun e => hi (Fin.ext e))
  · intro h
    exact absurd (Finset.mem_univ _) h

end Cert.OneBlock
-- ==== Proof.Algebra.lean ====
/-
  The row form of the network equals the per-sample form when the operands are packed.

  A row holds 32 samples side by side. If a weight operand is block diagonal with 32 copies of its corner block W,
  the product of a row with column (block g, offset j) of the operand only meets the row's block g: the terms of the
  other blocks are products with zero, which vanish on the extended reals whatever the other factor is (0·(±∞) = 0
  there), so no finiteness of the entries is needed. What remains is the corner block applied to sample g of the row.
  Layer by layer, entry (block g, offset j) of the row form is entry j of the per-sample form on sample g.
-/
import proofs.«145751_g2000606264827696_pallasbulk_793_13_alg».proof.Proof.Spec
import proofs.«145751_g2000606264827696_pallasbulk_793_13_alg».proof.Proof.SpecCongr
import proofs.«145751_g2000606264827696_pallasbulk_793_13_alg».proof.Proof.LibOneBlock

noncomputable section

namespace Cert.Algebra

open Cert.Spec
open scoped BigOperators

/-- One layer's product: a row R of 32 blocks of a entries against column c of an operand w whose column c carries
    the corner column cj in block g and zeros elsewhere, when block g of the row is H. -/
theorem layer_sum (a N : ℕ) (hN : 32 * a = N) (c cj : ℕ) (w : ℕ → ℕ → EReal) (R H : ℕ → EReal) (g : ℕ) (hg : g < 32)
    (hw : ∀ g' k, g' < 32 → k < a → w (a * g' + k) c = if g' = g then w k cj else 0)
    (hR : ∀ k, k < a → R (a * g + k) = H k) :
    ∑ q : Fin N, R q.val * w q.val c = ∑ k : Fin a, w k.val cj * H k.val := by
  rw [Cert.OneBlock.sum_one_block 32 a N hN g hg (fun q => R q * w q c) (fun g' k hg' hk hne => by
    show R (a * g' + k) * w (a * g' + k) c = 0
    rw [hw g' k hg' hk, if_neg hne, mul_zero])]
  refine Finset.sum_congr rfl fun k _ => ?_
  show R (a * g + k.val) * w (a * g + k.val) c = _
  rw [hw g k.val hg k.isLt, if_pos rfl, hR k.val k.isLt, mul_comm]

section packed

variable {w1 w2 w3 w4 b : ℕ → ℕ → EReal}
variable (p1 : ∀ g g' k j : ℕ, g < 32 → g' < 32 → k < 4 → j < 8 → w1 (4 * g + k) (8 * g' + j) = if g = g' then w1 k j else 0)
variable (p2 : ∀ g g' k j : ℕ, g < 32 → g' < 32 → k < 8 → j < 8 → w2 (8 * g + k) (8 * g' + j) = if g = g' then w2 k j else 0)
variable (p3 : ∀ g g' k j : ℕ, g < 32 → g' < 32 → k < 8 → j < 8 → w3 (8 * g + k) (8 * g' + j) = if g = g' then w3 k j else 0)
variable (p4 : ∀ g g' k j : ℕ, g < 32 → g' < 32 → k < 8 → j < 3 → w4 (8 * g + k) (3 * g' + j) = if g = g' then w4 k j else 0)
variable (pb : ∀ l g j : ℕ, l < 3 → g < 32 → j < 8 → b l (8 * g + j) = b l j)
variable (pb4 : ∀ g j : ℕ, g < 32 → j < 3 → b 3 (3 * g + j) = b 3 j)
variable (xr : ℕ → EReal)

include p1 pb in
theorem rhid1_block (g j : ℕ) (hg : g < 32) (hj : j < 8) :
    rhid1 w1 b xr (8 * g + j) = hid1 w1 b (fun k => xr (4 * g + k)) j := by
  unfold rhid1 hid1
  rw [pb 0 g j (by omega) hg hj,
    layer_sum 4 128 rfl (8 * g + j) j w1 xr (fun k => xr (4 * g + k)) g hg
      (fun g' k hg' hk => p1 g' g k j hg' hg hk hj) (fun _ _ => rfl)]

include p1 p2 pb in
theorem rhid2_block (g j : ℕ) (hg : g < 32) (hj : j < 8) :
    rhid2 w1 w2 b xr (8 * g + j) = hid2 w1 w2 b (fun k => xr (4 * g + k)) j := by
  unfold rhid2 hid2
  rw [pb 1 g j (by omega) hg hj,
    layer_sum 8 256 rfl (8 * g + j) j w2 (rhid1 w1 b xr) (hid1 w1 b (fun k => xr (4 * g + k))) g hg
      (fun g' k hg' hk => p2 g' g k j hg' hg hk hj) (fun k hk => rhid1_block p1 pb xr g k hg hk)]

include p1 p2 p3 pb in
theorem rhid3_block (g j : ℕ) (hg : g < 32) (hj : j < 8) :
    rhid3 w1 w2 w3 b xr (8 * g + j) = hid3 w1 w2 w3 b (fun k => xr (4 * g + k)) j := by
  unfold rhid3 hid3
  rw [pb 2 g j (by omega) hg hj,
    layer_sum 8 256 rfl (8 * g + j) j w3 (rhid2 w1 w2 b xr) (hid2 w1 w2 b (fun k => xr (4 * g + k))) g hg
      (fun g' k hg' hk => p3 g' g k j hg' hg hk hj) (fun k hk => rhid2_block p1 p2 pb xr g k hg hk)]

include p1 p2 p3 p4 pb pb4 in
/-- Entry (block g, offset j) of the row form's output is output j of the per-sample form on sample g of the row. -/
theorem routp_block (g j : ℕ) (hg : g < 32) (hj : j < 3) :
    routp w1 w2 w3 w4 b xr (3 * g + j) = outp w1 w2 w3 w4 b (fun k => xr (4 * g + k)) j := by
  unfold routp outp
  rw [pb4 g j hg hj,
    layer_sum 8 256 rfl (3 * g + j) j w4 (rhid3 w1 w2 w3 b xr) (hid3 w1 w2 w3 b (fun k => xr (4 * g + k))) g hg
      (fun g' k hg' hk => p4 g' g k j hg' hg hk hj) (fun k hk => rhid3_block p1 p2 p3 pb xr g k hg hk)]

end packed

/-- With packed operands the result row by row is the result sample by sample. -/
theorem Grow_eq_G (X : Arr 2097152 4) (M1 : Arr 128 256) (M2 M3 : Arr 256 256) (M4 : Arr 256 96) (B : Arr 4 256)
    (h : Packed M1 M2 M3 M4 B) : Grow X M1 M2 M3 M4 B = G X M1 M2 M3 M4 B := by
  funext i
  have hg : (i 0).val % 32 < 32 := Nat.mod_lt _ (by norm_num)
  have hj : (i 1).val < 3 := (i 1).isLt
  unfold Grow G
  rw [routp_block h.m1 h.m2 h.m3 h.m4 h.b123 h.b4 _ ((i 0).val % 32) (i 1).val hg hj]
  refine outp_congr (fun _ _ _ _ => rfl) (fun _ _ _ _ => rfl) (fun _ _ _ _ => rfl) (fun _ _ _ _ => rfl)
    (fun _ _ _ _ => rfl) (fun _ _ => rfl) (fun k hk => ?_) hj
  show at2 X (32 * ((i 0).val / 32) + (4 * ((i 0).val % 32) + k) / 4) ((4 * ((i 0).val % 32) + k) % 4) = at2 X (i 0).val k
  have e1 : (4 * ((i 0).val % 32) + k) / 4 = (i 0).val % 32 := by omega
  have e2 : (4 * ((i 0).val % 32) + k) % 4 = k := by omega
  have e3 : 32 * ((i 0).val / 32) + (i 0).val % 32 = (i 0).val := Nat.div_add_mod _ _
  rw [e1, e2, e3]

end Cert.Algebra

end
-- ==== Proof.Contract.lean ====
/-
  The precondition's added conjuncts, read entry by entry: the weight operands are block diagonal with 32 copies of their
  corner block and the bias rows repeat their first block.
-/
import proofs.«145751_g2000606264827696_pallasbulk_793_13_alg».proof.Pre_finite_inputs
import proofs.«145751_g2000606264827696_pallasbulk_793_13_alg».proof.Proof.Gen.Pre_finite_inputs
import proofs.«145751_g2000606264827696_pallasbulk_793_13_alg».proof.Proof.Spec
import Idealize.ShloMosaic.Lib.ValueIdx
import Idealize.ShloMosaic.Lib.ReduceAll
import Idealize.ShloMosaic.PureOps.Ideal.Laws

noncomputable section

namespace Cert.Contract

open Idealize.ShloMosaic Idealize.ShloMosaic.ValueIdx Cert.Pre_finite_inputs

/-! ### The arithmetic: a shift-invariant array with vanishing first block row and column is block diagonal -/

/-- A function of two coordinates that vanishes on the first block row right of the corner block, on the first block
    column below it, and is unchanged by a shift of one block down the diagonal, is block diagonal: block (g, g') is the
    corner block if g = g' and zero otherwise. -/
theorem blockDiag (f : Nat → Nat → EReal) (a b R C : Nat)
    (h1 : ∀ r c, r < a → b ≤ c → c < C → f r c = 0)
    (h2 : ∀ r c, c < b → a ≤ r → r < R → f r c = 0)
    (h3 : ∀ r c, r + a < R → c + b < C → f (r + a) (c + b) = f r c) :
    ∀ g g' k j : Nat, k < a → j < b → a * g + k < R → b * g' + j < C →
      f (a * g + k) (b * g' + j) = if g = g' then f k j else 0 := by
  intro g
  induction g with
  | zero =>
    intro g' k j hk hj hR hC
    rcases Nat.eq_zero_or_pos g' with rfl | hg'
    · simp
    · rw [if_neg (by omega)]
      have hb : b ≤ b * g' + j := Nat.le_trans (Nat.le_mul_of_pos_right b hg') (Nat.le_add_right _ _)
      have := h1 (a * 0 + k) (b * g' + j) (by omega) hb hC
      exact this
  | succ g ih =>
    intro g' k j hk hj hR hC
    cases g' with
    | zero =>
      rw [if_neg (by omega)]
      have ha : a ≤ a * (g + 1) + k := Nat.le_trans (Nat.le_mul_of_pos_right a (Nat.succ_pos g)) (Nat.le_add_right _ _)
      exact h2 _ _ (by omega) ha hR
    | succ g' =>
      have e1 : a * (g + 1) + k = (a * g + k) + a := by rw [Nat.mul_succ]; omega
      have e2 : b * (g' + 1) + j = (b * g' + j) + b := by rw [Nat.mul_succ]; omega
      rw [e1, e2, h3 _ _ (by omega) (by omega), ih g' k j hk hj (by omega) (by omega)]
      by_cases hg : g = g'
      · rw [if_pos hg, if_pos (by omega)]
      · rw [if_neg hg, if_neg (by omega)]

/-- A function of one coordinate unchanged by a shift of one block repeats its first block. -/
theorem periodic (f : Nat → EReal) (b C : Nat) (h : ∀ c, c + b < C → f (c + b) = f c) :
    ∀ g j : Nat, b * g + j < C → f (b * g + j) = f j := by
  intro g
  induction g with
  | zero => intro j _; simp
  | succ g ih =>
    intro j hC
    have e : b * (g + 1) + j = (b * g + j) + b := by rw [Nat.mul_succ]; omega
    rw [e, h _ (by omega), ih j (by omega)]

/-! ### The precondition's tests read entry by entry -/

/-- A conjunction of two one-bit arrays that is 1 at an index has both 1 there. -/
theorem and_one {s : Shape} (x y : IVec s 1) (i : s.Idx) (e : andi x y i = 1#1) : x i = 1#1 ∧ y i = 1#1 :=
  IntOp.andi_eq_one.1 e

/-- The scalar shape has one index. -/
theorem subsingleton_S_ : Subsingleton S_.Idx := ⟨fun a b => funext fun d => d.elim0⟩

/-- An ordered-equal comparison of extended reals that is 1 says they are equal. -/
theorem eq_of_cmp_oeq (x y : EReal) (e : Ideal.cmp .oeq x y = 1#1) : x = y := by
  by_contra hne
  have : Ideal.cmp .oeq x y = 0#1 := by simp [Ideal.cmp, hne]
  rw [this] at e
  exact absurd e (by decide)

/-- The conjunction over all entries of the test `x == y` being 1 says the two arrays agree at every index. -/
theorem all_oeq {s : Shape} {axes : List (Fin s.rank)} (x y : FVec Ideal s .f32) (init : IVec S_ 1)
    (hr : s.ReducesTo axes S_) (hu : 0 < S_.numel) (j : S_.Idx)
    (e : Host.reduce IntOp.andi (cmpf .oeq x y) init hr hu j = 1#1) (i : s.Idx) : x i = y i :=
  haveI := subsingleton_S_
  eq_of_cmp_oeq _ _ (Host.reduce_andi_all (cmpf .oeq x y) init hr hu j e i)

/-- The same by natural-number coordinates. -/
theorem all_oeq_at2 {a b : Nat} {axes : List (Fin (⟨2, ![a, b]⟩ : Shape).rank)} (x y : Spec.Arr a b) (init : IVec S_ 1)
    (hr : (⟨2, ![a, b]⟩ : Shape).ReducesTo axes S_) (hu : 0 < S_.numel) (j : S_.Idx)
    (e : Host.reduce IntOp.andi (cmpf .oeq x y) init hr hu j = 1#1) (r c : Nat) : Spec.at2 x r c = Spec.at2 y r c := by
  by_cases hrc : r < a ∧ c < b
  · rw [Spec.at2_of_lt x hrc.1 hrc.2, Spec.at2_of_lt y hrc.1 hrc.2]
    exact all_oeq x y init hr hu j e _
  · unfold Spec.at2
    rw [dif_neg hrc, dif_neg hrc]

/-- A slice read by natural-number coordinates is the operand at the shifted coordinates. -/
theorem at2_slice {A B a b : Nat} (M : Spec.Arr A B) (o1 o2 : Nat)
    (hs : (⟨2, ![A, B]⟩ : Shape).Slices ![o1, o2] ⟨2, ![a, b]⟩) {r c : Nat} (hr : r < a) (hc : c < b) :
    Spec.at2 (extractStridedSlice ⟨2, ![a, b]⟩ ![o1, o2] M hs) r c = Spec.at2 M (o1 + r) (o2 + c) := by
  have h0 : o1 + a ≤ A := hs.2 (⟨0, Nat.zero_lt_two⟩ : Fin 2)
  have h1 : o2 + b ≤ B := hs.2 (⟨1, Nat.one_lt_two⟩ : Fin 2)
  rw [Spec.at2_of_lt _ hr hc, Spec.at2_of_lt M (show o1 + r < A by omega) (show o2 + c < B by omega)]
  unfold extractStridedSlice
  refine congrArg M (funext fun d => ?_)
  match d with
  | ⟨0, _⟩ => rfl
  | ⟨1, _⟩ => rfl

/-- The zero splat read by natural-number coordinates is zero everywhere. -/
theorem at2_zero {a b : Nat} (hb : S_.BroadcastsInDim ⟨2, ![a, b]⟩ (![] : Fin 0 → Fin 2)) (r c : Nat) :
    Spec.at2 (broadcastInDim (⟨2, ![a, b]⟩ : Shape) ![] hb (constant (F := Ideal) S_ .f32 0x00000000#32)) r c = 0 := by
  unfold Spec.at2
  split
  · unfold broadcastInDim
    rw [constant_apply, Ideal.ofBits_zero_f32]
  · rfl

/-- The three tests of one weight operand, read by coordinates, make it block diagonal. -/
theorem packed_weight {R C : Nat} (M : Spec.Arr R C) (a b R' C' : Nat) (hR : a + R' = R) (hC : b + C' = C)
    (z1 : ∀ r c, r < a → c < C' → Spec.at2 M (0 + r) (b + c) = 0)
    (z2 : ∀ r c, r < R' → c < b → Spec.at2 M (a + r) (0 + c) = 0)
    (sh : ∀ r c, r < R' → c < C' → Spec.at2 M (a + r) (b + c) = Spec.at2 M (0 + r) (0 + c)) :
    ∀ g g' k j : Nat, k < a → j < b → a * g + k < R → b * g' + j < C →
      Spec.at2 M (a * g + k) (b * g' + j) = if g = g' then Spec.at2 M k j else 0 := by
  refine blockDiag (Spec.at2 M) a b R C ?_ ?_ ?_
  · intro r c hr hbc hc
    have := z1 r (c - b) hr (by omega)
    rwa [Nat.zero_add, show b + (c - b) = c by omega] at this
  · intro r c hc har hr
    have := z2 (r - a) c (by omega) hc
    rwa [Nat.zero_add, show a + (r - a) = r by omega] at this
  · intro r c hr hc
    have := sh r c (by omega) (by omega)
    rwa [Nat.zero_add, Nat.zero_add, Nat.add_comm a r, Nat.add_comm b c] at this

/-- If the precondition's function is all ones on the argument arrays, the operands are packed. -/
theorem packed_of_pre [Cert.Pre_finite_inputs.Facts] (X : FVec Ideal S2097152x4 .f32) (M1 : FVec Ideal S128x256 .f32) (M2 M3 : FVec Ideal S256x256 .f32)
    (M4 : FVec Ideal S256x96 .f32) (B : FVec Ideal S4x256 .f32)
    (h : Cert.Pre_finite_inputs.fn (F := Ideal) X M1 M2 M3 M4 B = (fun _ => 1#1)) : Spec.Packed M1 M2 M3 M4 B := by
  have h100 := congrFun h ix0
  -- the conjunction tree, outermost conjunct first
  obtain ⟨h94, h99⟩ := and_one _ _ _ h100
  obtain ⟨h88, h93⟩ := and_one _ _ _ h94
  obtain ⟨h73, h87⟩ := and_one _ _ _ h88
  obtain ⟨h82, h86⟩ := and_one _ _ _ h87
  obtain ⟨h77, h81⟩ := and_one _ _ _ h82
  obtain ⟨h58, h72⟩ := and_one _ _ _ h73
  obtain ⟨h67, h71⟩ := and_one _ _ _ h72
  obtain ⟨h62, h66⟩ := and_one _ _ _ h67
  obtain ⟨h43, h57⟩ := and_one _ _ _ h58
  obtain ⟨h52, h56⟩ := and_one _ _ _ h57
  obtain ⟨h47, h51⟩ := and_one _ _ _ h52
  obtain ⟨h28, h42⟩ := and_one _ _ _ h43
  obtain ⟨h37, h41⟩ := and_one _ _ _ h42
  obtain ⟨h32, h36⟩ := and_one _ _ _ h37
  clear h28 h100 h94 h88 h73 h87 h82 h58 h72 h67 h43 h57 h52 h42 h37
  -- the weight operands
  have m1 := packed_weight M1 4 8 124 248 rfl rfl
    (fun r c hr hc => (at2_slice M1 0 8 _ hr hc).symm.trans ((all_oeq_at2 _ _ _ _ _ _ h32 r c).trans (at2_zero _ r c)))
    (fun r c hr hc => (at2_slice M1 4 0 _ hr hc).symm.trans ((all_oeq_at2 _ _ _ _ _ _ h36 r c).trans (at2_zero _ r c)))
    (fun r c hr hc => (at2_slice M1 4 8 _ hr hc).symm.trans ((all_oeq_at2 _ _ _ _ _ _ h41 r c).trans (at2_slice M1 0 0 _ hr hc)))
  have m2 := packed_weight M2 8 8 248 248 rfl rfl
    (fun r c hr hc => (at2_slice M2 0 8 _ hr hc).symm.trans ((all_oeq_at2 _ _ _ _ _ _ h47 r c).trans (at2_zero _ r c)))
    (fun r c hr hc => (at2_slice M2 8 0 _ hr hc).symm.trans ((all_oeq_at2 _ _ _ _ _ _ h51 r c).trans (at2_zero _ r c)))
    (fun r c hr hc => (at2_slice M2 8 8 _ hr hc).symm.trans ((all_oeq_at2 _ _ _ _ _ _ h56 r c).trans (at2_slice M2 0 0 _ hr hc)))
  have m3 := packed_weight M3 8 8 248 248 rfl rfl
    (fun r c hr hc => (at2_slice M3 0 8 _ hr hc).symm.trans ((all_oeq_at2 _ _ _ _ _ _ h62 r c).trans (at2_zero _ r c)))
    (fun r c hr hc => (at2_slice M3 8 0 _ hr hc).symm.trans ((all_oeq_at2 _ _ _ _ _ _ h66 r c).trans (at2_zero _ r c)))
    (fun r c hr hc => (at2_slice M3 8 8 _ hr hc).symm.trans ((all_oeq_at2 _ _ _ _ _ _ h71 r c).trans (at2_slice M3 0 0 _ hr hc)))
  have m4 := packed_weight M4 8 3 248 93 rfl rfl
    (fun r c hr hc => (at2_slice M4 0 3 _ hr hc).symm.trans ((all_oeq_at2 _ _ _ _ _ _ h77 r c).trans (at2_zero _ r c)))
    (fun r c hr hc => (at2_slice M4 8 0 _ hr hc).symm.trans ((all_oeq_at2 _ _ _ _ _ _ h81 r c).trans (at2_zero _ r c)))
    (fun r c hr hc => (at2_slice M4 8 3 _ hr hc).symm.trans ((all_oeq_at2 _ _ _ _ _ _ h86 r c).trans (at2_slice M4 0 0 _ hr hc)))
  -- the bias rows 0, 1, 2: period 8
  have p8 : ∀ l c : Nat, l < 3 → c < 248 → Spec.at2 B l (c + 8) = Spec.at2 B l c := by
    intro l c hl hc
    have e := all_oeq_at2 _ _ _ _ _ _ h93 l c
    have s1 := at2_slice (extractStridedSlice S3x256 ![0, 0] B Facts.slices_S4x256_S3x256_0_0) 0 8
      Facts.slices_S3x256_S3x248_0_8 hl hc
    have s2 := at2_slice (extractStridedSlice S3x256 ![0, 0] B Facts.slices_S4x256_S3x256_0_0) 0 0
      Facts.slices_S3x256_S3x248_0_0 hl hc
    have s3 := at2_slice B 0 0 Facts.slices_S4x256_S3x256_0_0 (show 0 + l < 3 by omega) (show 8 + c < 256 by omega)
    have s4 := at2_slice B 0 0 Facts.slices_S4x256_S3x256_0_0 (show 0 + l < 3 by omega) (show 0 + c < 256 by omega)
    have := s3.symm.trans (s1.symm.trans (e.trans (s2.trans s4)))
    simp only [Nat.zero_add] at this
    rwa [Nat.add_comm 8 c] at this
  -- the bias row 3: period 3 on its first 96 entries
  have p3 : ∀ c : Nat, c < 93 → Spec.at2 B 3 (c + 3) = Spec.at2 B 3 c := by
    intro c hc
    have e := all_oeq_at2 _ _ _ _ _ _ h99 0 c
    have s1 := at2_slice (extractStridedSlice S1x96 ![3, 0] B Facts.slices_S4x256_S1x96_3_0) 0 3
      Facts.slices_S1x96_S1x93_0_3 (show 0 < 1 by omega) hc
    have s2 := at2_slice (extractStridedSlice S1x96 ![3, 0] B Facts.slices_S4x256_S1x96_3_0) 0 0
      Facts.slices_S1x96_S1x93_0_0 (show 0 < 1 by omega) hc
    have s3 := at2_slice B 3 0 Facts.slices_S4x256_S1x96_3_0 (show 0 + 0 < 1 by omega) (show 3 + c < 96 by omega)
    have s4 := at2_slice B 3 0 Facts.slices_S4x256_S1x96_3_0 (show 0 + 0 < 1 by omega) (show 0 + c < 96 by omega)
    have := s3.symm.trans (s1.symm.trans (e.trans (s2.trans s4)))
    simp only [Nat.zero_add, Nat.add_zero] at this
    rwa [Nat.add_comm 3 c] at this
  exact
    { m1 := fun g g' k j hg hg' hk hj => m1 g g' k j hk hj (by omega) (by omega)
      m2 := fun g g' k j hg hg' hk hj => m2 g g' k j hk hj (by omega) (by omega)
      m3 := fun g g' k j hg hg' hk hj => m3 g g' k j hk hj (by omega) (by omega)
      m4 := fun g g' k j hg hg' hk hj => m4 g g' k j hk hj (by omega) (by omega)
      b123 := fun l g j hl hg hj => periodic (Spec.at2 B l) 8 256 (fun c hc => p8 l c hl (by omega)) g j (by omega)
      b4 := fun g j hg hj => periodic (Spec.at2 B 3) 3 96 (fun c hc => p3 c (by omega)) g j (by omega) }

end Cert.Contract

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.KernelPay.lean ====
/-
  The kernel body's stored value read at an index.

  The body multiplies the transposed corner blocks into the loaded sample block, one layer after the other: a matrix
  product into a zero accumulator, a bias column spread over the samples, and a rectifier (none after the last layer).
  Each layer is read at an index (j, q) as the per-sample formula of the specification, and the four are chained.
-/
import proofs.«145751_g2000606264827696_pallasbulk_793_13_alg».proof.Proof.Gen.KernelIdeal.Skeleton
import proofs.«145751_g2000606264827696_pallasbulk_793_13_alg».proof.Proof.Spec
import proofs.«145751_g2000606264827696_pallasbulk_793_13_alg».proof.Proof.LibDot
import proofs.«145751_g2000606264827696_pallasbulk_793_13_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! ## One layer, for any extents

`W` is a weight block stored input coordinate × output coordinate (kk × m), `B` the bias block (4 × 8, one row per
layer), `X` the layer's input (kk × n, features × samples). The layer multiplies the transposed `W` into `X`, adds
column `l` of the transposed `B` (that is, row `l` of `B`) to every sample, and, in the hidden layers, takes the maximum
with the zero word's value. -/

section layer

variable {kk m n : Nat}

/-- The affine part of a layer at (j, q): Σ_c W(c, j)·X(c, q) + B(l, j). -/
theorem affine_apply (w : DotDims.WF ⟨2, ![m, kk]⟩ ⟨2, ![kk, n]⟩ ⟨2, ![m, n]⟩ [1] [0] [0] [1] [] [])
    (A : FVec Ideal ⟨2, ![m, kk]⟩ .f32) (X : FVec Ideal ⟨2, ![kk, n]⟩ .f32)
    (B : FVec Ideal ⟨2, ![4, 8]⟩ .f32) (hTB : (⟨2, ![4, 8]⟩ : Shape).Transposes [1, 0] ⟨2, ![8, 4]⟩)
    (l : Nat) (hl : l < 4) (hS : (⟨2, ![8, 4]⟩ : Shape).Slices ![0, l] ⟨2, ![m, 1]⟩)
    (hB : (⟨2, ![m, 1]⟩ : Shape).Broadcasts ⟨2, ![m, n]⟩)
    (j : Fin m) (j8 : Fin 8) (hj : j8.val = j.val) (q : Fin n) :
    addf (F := Ideal) (matmul (F := Ideal) (Cert.LibDot.dims w) none A X (constant (F := Ideal) ⟨2, ![m, n]⟩ .f32 0x00000000#32))
        (broadcastTo ⟨2, ![m, n]⟩
          (extractStridedSlice ⟨2, ![m, 1]⟩ ![0, l] (transpose ⟨2, ![8, 4]⟩ [1, 0] B hTB) hS) hB) (ix2 j q)
      = (∑ c : Fin kk, A (ix2 j c) * X (ix2 c q)) + B (ix2 ⟨l, hl⟩ j8) := by
  rw [addf_apply, Cert.LibDot.matmul_zero_apply, broadcastTo_a1_ab_apply]
  congr 1
  refine (extractStridedSlice_apply _ _ hS (ix2 j (0 : Fin 1)) (ix2 j8 (⟨l, hl⟩ : Fin 4)) fun a => ?_).trans
    (transpose_ix2_apply B hTB j8 ⟨l, hl⟩)
  match a with
  | ⟨0, _⟩ => show j8.val = 0 + j.val; omega
  | ⟨1, _⟩ => rfl

/-- A hidden layer at (j, q): the affine part, then the maximum with the zero word's value. -/
theorem hidden_apply (w : DotDims.WF ⟨2, ![m, kk]⟩ ⟨2, ![kk, n]⟩ ⟨2, ![m, n]⟩ [1] [0] [0] [1] [] [])
    (A : FVec Ideal ⟨2, ![m, kk]⟩ .f32) (X : FVec Ideal ⟨2, ![kk, n]⟩ .f32)
    (B : FVec Ideal ⟨2, ![4, 8]⟩ .f32) (hTB : (⟨2, ![4, 8]⟩ : Shape).Transposes [1, 0] ⟨2, ![8, 4]⟩)
    (l : Nat) (hl : l < 4) (hS : (⟨2, ![8, 4]⟩ : Shape).Slices ![0, l] ⟨2, ![m, 1]⟩)
    (hB : (⟨2, ![m, 1]⟩ : Shape).Broadcasts ⟨2, ![m, n]⟩)
    (j : Fin m) (j8 : Fin 8) (hj : j8.val = j.val) (q : Fin n) :
    maximumf (F := Ideal)
        (addf (F := Ideal) (matmul (F := Ideal) (Cert.LibDot.dims w) none A X (constant (F := Ideal) ⟨2, ![m, n]⟩ .f32 0x00000000#32))
          (broadcastTo ⟨2, ![m, n]⟩
            (extractStridedSlice ⟨2, ![m, 1]⟩ ![0, l] (transpose ⟨2, ![8, 4]⟩ [1, 0] B hTB) hS) hB))
        (broadcast ⟨2, ![m, n]⟩ (Scalar.ofBits (F := Ideal) .f32 0x00000000#32)) (ix2 j q)
      = max ((∑ c : Fin kk, A (ix2 j c) * X (ix2 c q)) + B (ix2 ⟨l, hl⟩ j8)) Spec.zero := by
  rw [maximumf_apply, affine_apply w A X B hTB l hl hS hB j j8 hj q, broadcast_apply]
  rfl

end layer

/-! ## The layers in the specification's vocabulary -/

section at2

variable {kk n : Nat}

/-- A hidden layer whose weight block `W` (kk × 8, input × output coordinate) enters transposed, read at (j, q), when
    the layer's input at sample q is `hs`: max(Σ_c W(c, j)·hs(c) + B(l, j), 0). -/
theorem hidden_at2 (w : DotDims.WF ⟨2, ![8, kk]⟩ ⟨2, ![kk, n]⟩ ⟨2, ![8, n]⟩ [1] [0] [0] [1] [] [])
    (W : FVec Ideal ⟨2, ![kk, 8]⟩ .f32) (hT : (⟨2, ![kk, 8]⟩ : Shape).Transposes [1, 0] ⟨2, ![8, kk]⟩)
    (X : FVec Ideal ⟨2, ![kk, n]⟩ .f32)
    (B : FVec Ideal ⟨2, ![4, 8]⟩ .f32) (hTB : (⟨2, ![4, 8]⟩ : Shape).Transposes [1, 0] ⟨2, ![8, 4]⟩)
    (l : Nat) (hl : l < 4) (hS : (⟨2, ![8, 4]⟩ : Shape).Slices ![0, l] ⟨2, ![8, 1]⟩)
    (hB : (⟨2, ![8, 1]⟩ : Shape).Broadcasts ⟨2, ![8, n]⟩)
    (j : Fin 8) (q : Fin n) (hs : Nat → EReal) (hX : ∀ c : Fin kk, X (ix2 c q) = hs c.val) :
    maximumf (F := Ideal)
        (addf (F := Ideal)
          (matmul (F := Ideal) (Cert.LibDot.dims w) none (transpose ⟨2, ![8, kk]⟩ [1, 0] W hT : FVec Ideal ⟨2, ![8, kk]⟩ .f32) X
            (constant (F := Ideal) ⟨2, ![8, n]⟩ .f32 0x00000000#32))
          (broadcastTo ⟨2, ![8, n]⟩
            (extractStridedSlice ⟨2, ![8, 1]⟩ ![0, l] (transpose ⟨2, ![8, 4]⟩ [1, 0] B hTB : FVec Ideal ⟨2, ![8, 4]⟩ .f32) hS) hB))
        (broadcast ⟨2, ![8, n]⟩ (Scalar.ofBits (F := Ideal) .f32 0x00000000#32)) (ix2 j q)
      = max ((∑ c : Fin kk, Spec.at2 W c.val j.val * hs c.val) + Spec.at2 B l j.val) Spec.zero := by
  refine (hidden_apply w _ X B hTB l hl hS hB j j rfl q).trans ?_
  have hb : Spec.at2 B l j.val = B (ix2 ⟨l, hl⟩ j) := Spec.at2_fin B ⟨l, hl⟩ j
  rw [hb]
  refine congrArg (fun t => max (t + B (ix2 ⟨l, hl⟩ j)) Spec.zero) (Finset.sum_congr rfl fun c _ => ?_)
  rw [transpose_ix2_apply, hX c, Spec.at2_fin]

/-- The output layer, whose weight block `A` (3 × 8, output × input coordinate) enters as loaded, read at (j, q), when
    the layer's input at sample q is `hs`: Σ_c A(j, c)·hs(c) + B(l, j). -/
theorem out_at2 (w : DotDims.WF ⟨2, ![3, 8]⟩ ⟨2, ![8, n]⟩ ⟨2, ![3, n]⟩ [1] [0] [0] [1] [] [])
    (A : FVec Ideal ⟨2, ![3, 8]⟩ .f32) (hC : (⟨2, ![3, 8]⟩ : Shape).ShapeCasts ⟨2, ![3, 8]⟩)
    (X : FVec Ideal ⟨2, ![8, n]⟩ .f32)
    (B : FVec Ideal ⟨2, ![4, 8]⟩ .f32) (hTB : (⟨2, ![4, 8]⟩ : Shape).Transposes [1, 0] ⟨2, ![8, 4]⟩)
    (l : Nat) (hl : l < 4) (hS : (⟨2, ![8, 4]⟩ : Shape).Slices ![0, l] ⟨2, ![3, 1]⟩)
    (hB : (⟨2, ![3, 1]⟩ : Shape).Broadcasts ⟨2, ![3, n]⟩)
    (j : Fin 3) (q : Fin n) (hs : Nat → EReal) (hX : ∀ c : Fin 8, X (ix2 c q) = hs c.val) :
    addf (F := Ideal)
        (matmul (F := Ideal) (Cert.LibDot.dims w) none (shapeCast ⟨2, ![3, 8]⟩ A hC : FVec Ideal ⟨2, ![3, 8]⟩ .f32) X
          (constant (F := Ideal) ⟨2, ![3, n]⟩ .f32 0x00000000#32))
        (broadcastTo ⟨2, ![3, n]⟩
          (extractStridedSlice ⟨2, ![3, 1]⟩ ![0, l] (transpose ⟨2, ![8, 4]⟩ [1, 0] B hTB : FVec Ideal ⟨2, ![8, 4]⟩ .f32) hS) hB)
        (ix2 j q)
      = (∑ c : Fin 8, Spec.at2 A j.val c.val * hs c.val) + Spec.at2 B l j.val := by
  have hj : j.val < 8 := by omega
  refine (affine_apply w _ X B hTB l hl hS hB j ⟨j.val, hj⟩ rfl q).trans ?_
  have hb : Spec.at2 B l j.val = B (ix2 ⟨l, hl⟩ ⟨j.val, hj⟩) := Spec.at2_fin B ⟨l, hl⟩ ⟨j.val, hj⟩
  rw [hb, shapeCast_self]
  refine congrArg (fun t => t + B (ix2 ⟨l, hl⟩ ⟨j.val, hj⟩)) (Finset.sum_congr rfl fun c _ => ?_)
  rw [hX c, Spec.at2_fin]

end at2

/-! ## The body's four layers as arrays -/

/-- The first hidden layer of every sample of the block. -/
def lay1 (v0 v8 : Vec Ideal S4x8 .f32) (v10 : Vec Ideal S4x262144 .f32) : FVec Ideal S8x262144 .f32 :=
  maximumf (F := Ideal)
    (addf (F := Ideal)
      (matmul (F := Ideal) dot_S8x4_S4x262144_S8x262144_1_0_0_1_n_n none
        (transpose S8x4 [1, 0] v0 transposes_S4x8_p1_0_S8x4 : FVec Ideal S8x4 .f32)
        (shapeCast S4x262144 v10 shapeCasts_S4x262144_S4x262144 : FVec Ideal S4x262144 .f32) (constant (F := Ideal) S8x262144 .f32 0x00000000#32))
      (broadcastTo S8x262144
        (extractStridedSlice S8x1 ![0, 0] (transpose S8x4 [1, 0] v8 transposes_S4x8_p1_0_S8x4 : FVec Ideal S8x4 .f32) slices_S8x4_o0_0_S8x1)
        broadcasts_S8x1_S8x262144))
    (broadcast S8x262144 (Scalar.ofBits (F := Ideal) .f32 0x00000000#32))

/-- The second hidden layer, from the first. -/
def lay2 (v2 : Vec Ideal S8x8 .f32) (v8 : Vec Ideal S4x8 .f32) (h : FVec Ideal S8x262144 .f32) : FVec Ideal S8x262144 .f32 :=
  maximumf (F := Ideal)
    (addf (F := Ideal)
      (matmul (F := Ideal) dot_S8x8_S8x262144_S8x262144_1_0_0_1_n_n none
        (transpose S8x8 [1, 0] v2 transposes_S8x8_p1_0_S8x8 : FVec Ideal S8x8 .f32) h (constant (F := Ideal) S8x262144 .f32 0x00000000#32))
      (broadcastTo S8x262144
        (extractStridedSlice S8x1 ![0, 1] (transpose S8x4 [1, 0] v8 transposes_S4x8_p1_0_S8x4 : FVec Ideal S8x4 .f32) slices_S8x4_o0_1_S8x1)
        broadcasts_S8x1_S8x262144))
    (broadcast S8x262144 (Scalar.ofBits (F := Ideal) .f32 0x00000000#32))

/-- The third hidden layer, from the second. -/
def lay3 (v4 : Vec Ideal S8x8 .f32) (v8 : Vec Ideal S4x8 .f32) (h : FVec Ideal S8x262144 .f32) : FVec Ideal S8x262144 .f32 :=
  maximumf (F := Ideal)
    (addf (F := Ideal)
      (matmul (F := Ideal) dot_S8x8_S8x262144_S8x262144_1_0_0_1_n_n none
        (transpose S8x8 [1, 0] v4 transposes_S8x8_p1_0_S8x8 : FVec Ideal S8x8 .f32) h (constant (F := Ideal) S8x262144 .f32 0x00000000#32))
      (broadcastTo S8x262144
        (extractStridedSlice S8x1 ![0, 2] (transpose S8x4 [1, 0] v8 transposes_S4x8_p1_0_S8x4 : FVec Ideal S8x4 .f32) slices_S8x4_o0_2_S8x1)
        broadcasts_S8x1_S8x262144))
    (broadcast S8x262144 (Scalar.ofBits (F := Ideal) .f32 0x00000000#32))

/-- The output layer, from the third hidden layer: no rectifier, and the fourth weight block is used as loaded. -/
def lay4 (v6 : Vec Ideal S3x8 .f32) (v8 : Vec Ideal S4x8 .f32) (h : FVec Ideal S8x262144 .f32) : FVec Ideal S3x262144 .f32 :=
  addf (F := Ideal)
    (matmul (F := Ideal) dot_S3x8_S8x262144_S3x262144_1_0_0_1_n_n none
      (shapeCast S3x8 v6 shapeCasts_S3x8_S3x8 : FVec Ideal S3x8 .f32) h (constant (F := Ideal) S3x262144 .f32 0x00000000#32))
    (broadcastTo S3x262144
      (extractStridedSlice S3x1 ![0, 3] (transpose S8x4 [1, 0] v8 transposes_S4x8_p1_0_S8x4 : FVec Ideal S8x4 .f32) slices_S8x4_o0_3_S3x1)
      broadcasts_S3x1_S3x262144)

/-- The stored value is the four layers composed: the printed sequence, unfolded. -/
theorem pay_eq_layers (v0 : Vec Ideal S4x8 .f32) (v2 v4 : Vec Ideal S8x8 .f32) (v6 : Vec Ideal S3x8 .f32)
    (v8 : Vec Ideal S4x8 .f32) (v10 : Vec Ideal S4x262144 .f32) :
    k0_pay1 (F := Ideal) v0 v2 v4 v6 v8 v10 = lay4 v6 v8 (lay3 v4 v8 (lay2 v2 v8 (lay1 v0 v8 v10))) := rfl

/-! ## Each layer array read at (j, q) -/

section read

variable (v0 : Vec Ideal S4x8 .f32) (v2 v4 : Vec Ideal S8x8 .f32) (v6 : Vec Ideal S3x8 .f32)
  (v8 : Vec Ideal S4x8 .f32) (v10 : Vec Ideal S4x262144 .f32) (q : Fin 262144)

theorem lay1_apply (j : Fin 8) :
    lay1 v0 v8 v10 (ix2 j q)
      = Spec.hid1 (Spec.at2 v0) (Spec.at2 v8) (fun k => Spec.at2 v10 k q.val) j.val := by
  unfold lay1
  rw [shapeCast_self]
  exact hidden_at2 dot_S8x4_S4x262144_S8x262144_1_0_0_1_n_n_wf v0 transposes_S4x8_p1_0_S8x4 v10 v8
    transposes_S4x8_p1_0_S8x4 0 (by omega) slices_S8x4_o0_0_S8x1 broadcasts_S8x1_S8x262144 j q
    (fun k => Spec.at2 v10 k q.val) (fun c => (Spec.at2_fin v10 c q).symm)

theorem lay2_apply (h : FVec Ideal S8x262144 .f32) (hs : Nat → EReal) (hh : ∀ c : Fin 8, h (ix2 c q) = hs c.val) (j : Fin 8) :
    lay2 v2 v8 h (ix2 j q)
      = max ((∑ k : Fin 8, Spec.at2 v2 k.val j.val * hs k.val) + Spec.at2 v8 1 j.val) Spec.zero := by
  unfold lay2
  exact hidden_at2 dot_S8x8_S8x262144_S8x262144_1_0_0_1_n_n_wf v2 transposes_S8x8_p1_0_S8x8 h v8
    transposes_S4x8_p1_0_S8x4 1 (by omega) slices_S8x4_o0_1_S8x1 broadcasts_S8x1_S8x262144 j q hs hh

theorem lay3_apply (h : FVec Ideal S8x262144 .f32) (hs : Nat → EReal) (hh : ∀ c : Fin 8, h (ix2 c q) = hs c.val) (j : Fin 8) :
    lay3 v4 v8 h (ix2 j q)
      = max ((∑ k : Fin 8, Spec.at2 v4 k.val j.val * hs k.val) + Spec.at2 v8 2 j.val) Spec.zero := by
  unfold lay3
  exact hidden_at2 dot_S8x8_S8x262144_S8x262144_1_0_0_1_n_n_wf v4 transposes_S8x8_p1_0_S8x8 h v8
    transposes_S4x8_p1_0_S8x4 2 (by omega) slices_S8x4_o0_2_S8x1 broadcasts_S8x1_S8x262144 j q hs hh

theorem lay4_apply (h : FVec Ideal S8x262144 .f32) (hs : Nat → EReal) (hh : ∀ c : Fin 8, h (ix2 c q) = hs c.val) (j : Fin 3) :
    lay4 v6 v8 h (ix2 j q)
      = (∑ k : Fin 8, Spec.at2 v6 j.val k.val * hs k.val) + Spec.at2 v8 3 j.val := by
  unfold lay4
  exact out_at2 dot_S3x8_S8x262144_S3x262144_1_0_0_1_n_n_wf v6 shapeCasts_S3x8_S3x8 h v8
    transposes_S4x8_p1_0_S8x4 3 (by omega) slices_S8x4_o0_3_S3x1 broadcasts_S3x1_S3x262144 j q hs hh

end read

/-- Entry (j, q) of the value the body stores: output j of the network on the sample whose features are column q of the
    loaded block `v10`, with weights W1(k, j) = v0(k, j), W2 = v2, W3 = v4, W4(k, j) = v6(j, k) (the fourth operand is
    loaded transposed) and biases b_l(j) = v8(l, j). -/
theorem pay_apply (v0 : Vec Ideal S4x8 .f32) (v2 v4 : Vec Ideal S8x8 .f32) (v6 : Vec Ideal S3x8 .f32)
    (v8 : Vec Ideal S4x8 .f32) (v10 : Vec Ideal S4x262144 .f32) (j : Fin 3) (q : Fin 262144) :
    k0_pay1 (F := Ideal) v0 v2 v4 v6 v8 v10 (ix2 j q)
      = Spec.outp (Spec.at2 v0) (Spec.at2 v2) (Spec.at2 v4) (fun k j' => Spec.at2 v6 j' k) (Spec.at2 v8)
          (fun k => Spec.at2 v10 k q.val) j.val := by
  rw [pay_eq_layers]
  have h1 : ∀ c : Fin 8, lay1 v0 v8 v10 (ix2 c q)
      = Spec.hid1 (Spec.at2 v0) (Spec.at2 v8) (fun k => Spec.at2 v10 k q.val) c.val :=
    fun c => lay1_apply v0 v8 v10 q c
  have h2 : ∀ c : Fin 8, lay2 v2 v8 (lay1 v0 v8 v10) (ix2 c q)
      = Spec.hid2 (Spec.at2 v0) (Spec.at2 v2) (Spec.at2 v8) (fun k => Spec.at2 v10 k q.val) c.val :=
    fun c => lay2_apply v2 v8 q _ _ h1 c
  have h3 : ∀ c : Fin 8, lay3 v4 v8 (lay2 v2 v8 (lay1 v0 v8 v10)) (ix2 c q)
      = Spec.hid3 (Spec.at2 v0) (Spec.at2 v2) (Spec.at2 v4) (Spec.at2 v8) (fun k => Spec.at2 v10 k q.val) c.val :=
    fun c => lay3_apply v4 v8 q _ _ h2 c
  exact lay4_apply v6 v8 q _ _ h3 j

end Cert.KernelIdeal.Pay

end
-- ==== Proof.KernelValueBody.lean ====
/-
  What the kernel body leaves in the output block, entry by entry, as the network of the operands' corner blocks applied
  to one column of the loaded sample block.
-/
import proofs.«145751_g2000606264827696_pallasbulk_793_13_alg».proof.Proof.Gen.KernelIdeal.Frame
import proofs.«145751_g2000606264827696_pallasbulk_793_13_alg».proof.Proof.KernelPay
import proofs.«145751_g2000606264827696_pallasbulk_793_13_alg».proof.Proof.Spec
import proofs.«145751_g2000606264827696_pallasbulk_793_13_alg».proof.Proof.SpecCongr
import Idealize.ShloMosaic.Lib.ValueIdx
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen

/-- The zero offsets, however spelt. -/
theorem hz : (![0, 0] : Fin 2 → Nat) = fun _ => 0 := funext fun a => by fin_cases a <;> rfl

/-- A load of the a×b corner at offset (0, 0) of an A×B array reads the array's entries inside the corner. -/
theorem at2_ld_corner {A B a b : Nat} (x : FVec Ideal ⟨2, ![A, B]⟩ .f32)
    (inb : ∀ d, (![0, 0] : Fin 2 → Nat) d + (⟨2, ![a, b]⟩ : Shape).size d ≤ (⟨2, ![A, B]⟩ : Shape).size d)
    {r c : Nat} (hr : r < a) (hc : c < b) :
    Spec.at2 (a := a) (b := b) (View.ld (Val := Elt Ideal) (e' := .f32) x (Rect.unit (s := ⟨2, ![A, B]⟩) ![0, 0] (⟨2, ![a, b]⟩ : Shape).size inb)) r c = Spec.at2 x r c := by
  have hA : a ≤ A := by have := inb 0; simpa using this
  have hB : b ≤ B := by have := inb 1; simpa using this
  rw [Spec.at2_of_lt _ hr hc, Spec.at2_of_lt x (Nat.lt_of_lt_of_le hr hA) (Nat.lt_of_lt_of_le hc hB)]
  refine congrArg x (funext fun d => Fin.ext ?_)
  match d with
  | ⟨0, _⟩ => show 0 + 1 * r = r; omega
  | ⟨1, _⟩ => show 0 + 1 * c = c; omega

/-- Entry (j, q) of the output block after the body: output j of the network on the sample in column q of the sample
    block `x0`, weights and biases from the corners of the operand blocks `x1` … `x5` (the fourth operand is held
    transposed). The loaded corners agree with the operands inside the corner, which is all the network reads. -/
theorem out_at (x0 : Vec Ideal S4x262144 .f32) (x1 : Vec Ideal S128x256 .f32) (x2 x3 : Vec Ideal S256x256 .f32)
    (x4 : Vec Ideal S96x256 .f32) (x5 : Vec Ideal S4x256 .f32) (j : Fin 3) (q : Fin 262144) :
    out0_6 (F := Ideal) x0 x1 x2 x3 x4 x5 (ix2 j q)
      = Spec.outp (Spec.at2 x1) (Spec.at2 x2) (Spec.at2 x3) (fun k j' => Spec.at2 x4 j' k) (Spec.at2 x5)
          (fun k => Spec.at2 x0 k q.val) j.val := by
  unfold out0_6
  rw [View.canon_unit_zero hz, View.ld_unit_zero (S := S4x262144) hz, Pay.pay_apply]
  refine Spec.outp_congr (fun k j' hk hj => ?_) (fun k j' hk hj => ?_) (fun k j' hk hj => ?_) (fun k j' hk hj => ?_)
    (fun l j' hl hj => ?_) (fun j' hj => ?_) (fun k hk => rfl) j.isLt
  · exact at2_ld_corner x1 _ hk hj
  · exact at2_ld_corner x2 _ hk hj
  · exact at2_ld_corner x3 _ hk hj
  · exact at2_ld_corner x4 _ hj hk
  · exact at2_ld_corner x5 _ (by omega) hj
  · exact at2_ld_corner x5 _ (by omega) (by omega)

end Cert.KernelIdeal.Val

end
-- ==== Proof.KernelValueBlocks.lean ====
/-
  What the region finds in each window's array, and each window's block at a grid point as entries of the argument arrays:
  the operands' windows hold their whole arrays (the fourth operand transposed), the sample window at point t holds
  samples 262144·t … 262144·t + 262143, one per column.
-/
import proofs.«145751_g2000606264827696_pallasbulk_793_13_alg».proof.Proof.Gen.KernelIdeal.Frame
import proofs.«145751_g2000606264827696_pallasbulk_793_13_alg».proof.Proof.Spec
import Idealize.ShloMosaic.Lib.ValueIdx
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The printed index maps over the 8 grid points: the sample window and the output window move along the sample axis
    one block per point; every operand window stays on its one block. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

theorem t_lt (t : Fin cfg0.N) : t.val < 8 := Nat.lt_of_lt_of_eq t.isLt N_0

/-- The transposed sample array the region finds. -/
theorem V_main_v0 (c : Dev nD) :
    (V m c main_v0 : S4x2097152.Idx → EReal)
      = transpose S4x2097152 [1, 0] (m ((c : Thread nD τ).loc main_arg0)) transposes_S2097152x4_S4x2097152_1_0 := by
  show StableHlo.after hostOps0 (fun b => m (c, b)) (Proc.devRef .tc main_v0) = _
  after_results

/-- The transposed fourth operand the region finds. -/
theorem V_main_v1 (c : Dev nD) :
    (V m c main_v1 : S96x256.Idx → EReal)
      = transpose S96x256 [1, 0] (m ((c : Thread nD τ).loc main_arg4)) transposes_S256x96_S96x256_1_0 := by
  show StableHlo.after hostOps0 (fun b => m (c, b)) (Proc.devRef .tc main_v1) = _
  after_results

theorem V_main_v0_apply (c : Dev nD) (k : Fin 4) (s : Fin 2097152) :
    (V m c main_v0 : S4x2097152.Idx → EReal) (ix2 k s)
      = (m ((c : Thread nD τ).loc main_arg0) : S2097152x4.Idx → EReal) (ix2 s k) := by
  rw [V_main_v0]
  exact transpose_apply [1, 0] _ transposes_S2097152x4_S4x2097152_1_0 (ix2 k s) (ix2 s k)
    (fun b => by match b with | ⟨0, _⟩ => rfl | ⟨1, _⟩ => rfl)

theorem V_main_v1_apply (c : Dev nD) (j : Fin 96) (k : Fin 256) :
    (V m c main_v1 : S96x256.Idx → EReal) (ix2 j k)
      = (m ((c : Thread nD τ).loc main_arg4) : S256x96.Idx → EReal) (ix2 k j) := by
  rw [V_main_v1]
  exact transpose_apply [1, 0] _ transposes_S256x96_S96x256_1_0 (ix2 j k) (ix2 k j)
    (fun b => by match b with | ⟨0, _⟩ => rfl | ⟨1, _⟩ => rfl)

/-- The sample window's block at point t is columns 262144·t … 262144·t + 262143 of the transposed sample array:
    entry (k, q) is feature k of sample 262144·t + q. -/
theorem at2_iblk0 (c : Dev nD) (t : Fin cfg0.N) {k q : Nat} (hk : k < 4) (hq : q < 262144) :
    Spec.at2 (iblk m c 0 t : Vec Ideal S4x262144 .f32) k q
      = Spec.at2 (m ((c : Thread nD τ).loc main_arg0) : Spec.Arr 2097152 4) (262144 * t.val + q) k := by
  have ht := t_lt t
  obtain ⟨h0, h1, -⟩ := idx_facts t
  have hs : 262144 * t.val + q < 2097152 := by omega
  rw [Spec.at2_of_lt _ hk hq, Spec.at2_of_lt _ hs hk, ← V_main_v0_apply m c ⟨k, hk⟩ ⟨262144 * t.val + q, hs⟩]
  unfold iblk
  rw [View.read_apply]
  show V m c main_v0 _ = V m c main_v0 _
  refine congrArg _ (funext fun a => Fin.ext ?_)
  match a with
  | ⟨0, _⟩ => show win0_0.index t (0 : Fin 2) * 4 + 1 * k = k; rw [h0]; omega
  | ⟨1, _⟩ => show win0_0.index t (1 : Fin 2) * 262144 + 1 * q = 262144 * t.val + q; rw [h1]; omega

/-- Operand window 1's one block is its whole array. -/
theorem at2_iblk1 (c : Dev nD) (t : Fin cfg0.N) {r c' : Nat} (hr : r < 128) (hc : c' < 256) :
    Spec.at2 (iblk m c 1 t : Vec Ideal S128x256 .f32) r c'
      = Spec.at2 (m ((c : Thread nD τ).loc main_arg1) : Spec.Arr 128 256) r c' := by
  obtain ⟨-, -, h0, h1, -⟩ := idx_facts t
  rw [Spec.at2_of_lt _ hr hc, Spec.at2_of_lt _ hr hc]
  refine Eq.trans ?_ (congrFun (V_main_arg1 m c) (ix2 ⟨r, hr⟩ ⟨c', hc⟩))
  unfold iblk
  rw [View.read_apply]
  show V m c main_arg1 _ = V m c main_arg1 _
  refine congrArg _ (funext fun a => Fin.ext ?_)
  match a with
  | ⟨0, _⟩ => show win0_1.index t (0 : Fin 2) * 128 + 1 * r = r; rw [h0]; omega
  | ⟨1, _⟩ => show win0_1.index t (1 : Fin 2) * 256 + 1 * c' = c'; rw [h1]; omega

/-- Operand window 2's one block is its whole array. -/
theorem at2_iblk2 (c : Dev nD) (t : Fin cfg0.N) {r c' : Nat} (hr : r < 256) (hc : c' < 256) :
    Spec.at2 (iblk m c 2 t : Vec Ideal S256x256 .f32) r c'
      = Spec.at2 (m ((c : Thread nD τ).loc main_arg2) : Spec.Arr 256 256) r c' := by
  obtain ⟨-, -, -, -, h0, h1, -⟩ := idx_facts t
  rw [Spec.at2_of_lt _ hr hc, Spec.at2_of_lt _ hr hc]
  refine Eq.trans ?_ (congrFun (V_main_arg2 m c) (ix2 ⟨r, hr⟩ ⟨c', hc⟩))
  unfold iblk
  rw [View.read_apply]
  show V m c main_arg2 _ = V m c main_arg2 _
  refine congrArg _ (funext fun a => Fin.ext ?_)
  match a with
  | ⟨0, _⟩ => show win0_2.index t (0 : Fin 2) * 256 + 1 * r = r; rw [h0]; omega
  | ⟨1, _⟩ => show win0_2.index t (1 : Fin 2) * 256 + 1 * c' = c'; rw [h1]; omega

/-- Operand window 3's one block is its whole array. -/
theorem at2_iblk3 (c : Dev nD) (t : Fin cfg0.N) {r c' : Nat} (hr : r < 256) (hc : c' < 256) :
    Spec.at2 (iblk m c 3 t : Vec Ideal S256x256 .f32) r c'
      = Spec.at2 (m ((c : Thread nD τ).loc main_arg3) : Spec.Arr 256 256) r c' := by
  obtain ⟨-, -, -, -, -, -, h0, h1, -⟩ := idx_facts t
  rw [Spec.at2_of_lt _ hr hc, Spec.at2_of_lt _ hr hc]
  refine Eq.trans ?_ (congrFun (V_main_arg3 m c) (ix2 ⟨r, hr⟩ ⟨c', hc⟩))
  unfold iblk
  rw [View.read_apply]
  show V m c main_arg3 _ = V m c main_arg3 _
  refine congrArg _ (funext fun a => Fin.ext ?_)
  match a with
  | ⟨0, _⟩ => show win0_3.index t (0 : Fin 2) * 256 + 1 * r = r; rw [h0]; omega
  | ⟨1, _⟩ => show win0_3.index t (1 : Fin 2) * 256 + 1 * c' = c'; rw [h1]; omega

/-- Operand window 5's one block is its whole array. -/
theorem at2_iblk5 (c : Dev nD) (t : Fin cfg0.N) {r c' : Nat} (hr : r < 4) (hc : c' < 256) :
    Spec.at2 (iblk m c 5 t : Vec Ideal S4x256 .f32) r c'
      = Spec.at2 (m ((c : Thread nD τ).loc main_arg5) : Spec.Arr 4 256) r c' := by
  obtain ⟨-, -, -, -, -, -, -, -, -, -, h0, h1, -⟩ := idx_facts t
  rw [Spec.at2_of_lt _ hr hc, Spec.at2_of_lt _ hr hc]
  refine Eq.trans ?_ (congrFun (V_main_arg5 m c) (ix2 ⟨r, hr⟩ ⟨c', hc⟩))
  unfold iblk
  rw [View.read_apply]
  show V m c main_arg5 _ = V m c main_arg5 _
  refine congrArg _ (funext fun a => Fin.ext ?_)
  match a with
  | ⟨0, _⟩ => show win0_5.index t (0 : Fin 2) * 4 + 1 * r = r; rw [h0]; omega
  | ⟨1, _⟩ => show win0_5.index t (1 : Fin 2) * 256 + 1 * c' = c'; rw [h1]; omega

/-- The fourth operand's window holds the transposed operand: entry (j, k) of its one block is entry (k, j) of the operand. -/
theorem at2_iblk4 (c : Dev nD) (t : Fin cfg0.N) {j k : Nat} (hj : j < 96) (hk : k < 256) :
    Spec.at2 (iblk m c 4 t : Vec Ideal S96x256 .f32) j k
      = Spec.at2 (m ((c : Thread nD τ).loc main_arg4) : Spec.Arr 256 96) k j := by
  obtain ⟨-, -, -, -, -, -, -, -, h0, h1, -⟩ := idx_facts t
  rw [Spec.at2_of_lt _ hj hk, Spec.at2_of_lt _ hk hj]
  refine Eq.trans ?_ (V_main_v1_apply m c ⟨j, hj⟩ ⟨k, hk⟩)
  unfold iblk
  rw [View.read_apply]
  show V m c main_v1 _ = V m c main_v1 _
  refine congrArg _ (funext fun a => Fin.ext ?_)
  match a with
  | ⟨0, _⟩ => show win0_4.index t (0 : Fin 2) * 96 + 1 * j = j; rw [h0]; omega
  | ⟨1, _⟩ => show win0_4.index t (1 : Fin 2) * 256 + 1 * k = k; rw [h1]; omega

end Cert.KernelIdeal.Val

end
-- ==== Proof.KernelValue.lean ====
/-
  What the kernel program leaves in its result array.
-/
import proofs.«145751_g2000606264827696_pallasbulk_793_13_alg».proof.Proof.Gen.KernelIdeal.Frame
import proofs.«145751_g2000606264827696_pallasbulk_793_13_alg».proof.Proof.KernelPay
import proofs.«145751_g2000606264827696_pallasbulk_793_13_alg».proof.Proof.Spec
import proofs.«145751_g2000606264827696_pallasbulk_793_13_alg».proof.Proof.SpecCongr
import proofs.«145751_g2000606264827696_pallasbulk_793_13_alg».proof.Proof.KernelValueBody
import proofs.«145751_g2000606264827696_pallasbulk_793_13_alg».proof.Proof.KernelValueBlocks
import Idealize.ShloMosaic.Lib.ValueIdx
import Idealize.ShloMosaic.Lib.Pipeline.Value

noncomputable section

namespace Cert.KernelIdeal.Val

open Idealize.ShloMosaic Idealize.ShloMosaic.TcCoe Idealize.ShloMosaic.ValueIdx Idealize.SL.Sem
open Cert.KernelIdeal Cert.KernelIdeal.Gen

section blocks

variable (m : (ℓ : Loc nD τ sig) → Buf (Elt Ideal) ℓ)

/-- Two functions on a two-axis index type agree when they agree at every pair of coordinates. -/
theorem funext_ix2 {A B : Nat} {α : Type} {f g : (⟨2, ![A, B]⟩ : Shape).Idx → α}
    (h : ∀ (a : Fin A) (b : Fin B), f (ix2 a b) = g (ix2 a b)) : f = g :=
  funext fun y => by rw [eq_ix2 y]; exact h _ _

/-- The region's output array as one function of the argument arrays: entry (j, s) is output j of the network on
    sample s, weights and biases from the operands' corner blocks. -/
def Gt (c : Dev nD) : S3x2097152.Idx → EReal := fun i =>
  Spec.outp (Spec.at2 (m ((c : Thread nD τ).loc main_arg1) : Spec.Arr 128 256))
    (Spec.at2 (m ((c : Thread nD τ).loc main_arg2) : Spec.Arr 256 256))
    (Spec.at2 (m ((c : Thread nD τ).loc main_arg3) : Spec.Arr 256 256))
    (Spec.at2 (m ((c : Thread nD τ).loc main_arg4) : Spec.Arr 256 96))
    (Spec.at2 (m ((c : Thread nD τ).loc main_arg5) : Spec.Arr 4 256))
    (fun k => Spec.at2 (m ((c : Thread nD τ).loc main_arg0) : Spec.Arr 2097152 4) (i 1).val k) (i 0).val

/-- What the body leaves at point t, entry (j, q): output j of the network on sample 262144·t + q. -/
theorem out_at_point (c : Dev nD) (t : Fin cfg0.N) (j : Fin 3) (q : Fin 262144) (hs : 262144 * t.val + q.val < 2097152) :
    out0_6 (F := Ideal) (iblk m c 0 t) (iblk m c 1 t) (iblk m c 2 t) (iblk m c 3 t) (iblk m c 4 t) (iblk m c 5 t) (ix2 j q)
      = Gt m c (ix2 j ⟨262144 * t.val + q.val, hs⟩) := by
  refine (out_at (iblk m c 0 t) (iblk m c 1 t) (iblk m c 2 t) (iblk m c 3 t) (iblk m c 4 t) (iblk m c 5 t) j q).trans ?_
  unfold Gt
  refine Spec.outp_congr (fun k j' hk hj => ?_) (fun k j' hk hj => ?_) (fun k j' hk hj => ?_) (fun k j' hk hj => ?_)
    (fun l j' hl hj => ?_) (fun j' hj => ?_) (fun k hk => ?_) j.isLt
  · exact at2_iblk1 m c t (by omega) (by omega)
  · exact at2_iblk2 m c t (by omega) (by omega)
  · exact at2_iblk3 m c t (by omega) (by omega)
  · exact at2_iblk4 m c t (by omega) (by omega)
  · exact at2_iblk5 m c t (by omega) (by omega)
  · exact at2_iblk5 m c t (by omega) (by omega)
  · exact at2_iblk0 m c t hk q.isLt

/-- Where entry (j, q) of the output window's block at point t sits in the array: row j, column 262144·t + q. -/
theorem emb6 (t : Fin cfg0.N) (j : Fin 3) (q : Fin 262144) (hs : 262144 * t.val + q.val < 2097152) :
    ((cfg0.win 6).blk t).view.emb (ix2 j q) = (ix2 j ⟨262144 * t.val + q.val, hs⟩ : S3x2097152.Idx) := by
  obtain ⟨-, -, -, -, -, -, -, -, -, -, -, -, h0, h1⟩ := idx_facts t
  funext a
  apply Fin.ext
  match a with
  | ⟨0, _⟩ => show win0_6.index t (0 : Fin 2) * 3 + 1 * j.val = j.val; rw [h0]; omega
  | ⟨1, _⟩ => show win0_6.index t (1 : Fin 2) * 262144 + 1 * q.val = 262144 * t.val + q.val; rw [h1]; omega

/-- What point t writes back is block t of `Gt`. -/
theorem flushed_eq (c : Dev nD) (t : Fin cfg0.N) :
    (dats m 0 c).flushed 6 t = ((cfg0.win 6).blk t).view.read (Elt Ideal) (Gt m c) := by
  show (cfg0.win 6).cut (grid0.coords t) ((dats m 0 c).after 6 t) = _
  rw [after0_6]
  refine funext_ix2 (A := 3) (B := 262144) fun j q => ?_
  have hs : 262144 * t.val + q.val < 2097152 := by have := t_lt t; have := q.isLt; omega
  rw [View.read_apply]
  show out0_6 (F := Ideal) (iblk m c 0 t) (iblk m c 1 t) (iblk m c 2 t) (iblk m c 3 t) (iblk m c 4 t) (iblk m c 5 t) (ix2 j q)
    = Gt m c (((cfg0.win 6).blk t).view.emb (ix2 j q))
  exact (out_at_point m c t j q hs).trans (congrArg (Gt m c) (emb6 t j q hs).symm)

/-- An index of the output array is in point t's block iff each coordinate is in the block's range on its axis. -/
theorem mem_blk6 (t : Fin cfg0.N) (i : S3x2097152.Idx) :
    i ∈ ((cfg0.win 6).blk t).view.set ↔ ∀ a : Fin 2, win0_6.index t a * S3x262144.size a ≤ (i a).val
      ∧ (i a).val < win0_6.index t a * S3x262144.size a + S3x262144.size a := by
  show i ∈ ((View.whole main_v2).slice (win0_6.rect t)).set ↔ _
  rw [View.set_slice_whole, Rect.mem_set_unit]
  exact Iff.rfl

/-- Every entry of the output array is written back: column s by point s / 262144. -/
theorem cover6 (i : S3x2097152.Idx) :
    ∃ t : Fin cfg0.N, (cfg0.win 6).flush t = true ∧ i ∈ ((cfg0.win 6).blk t).view.set := by
  have hi0 : (i 0).val < 3 := (i 0).isLt
  have hi1 : (i 1).val < 2097152 := (i 1).isLt
  have hN : (i 1).val / 262144 < cfg0.N := by rw [show cfg0.N = 8 from N_0]; omega
  obtain ⟨-, -, -, -, -, -, -, -, -, -, -, -, h0, h1⟩ := idx_facts ⟨(i 1).val / 262144, hN⟩
  refine ⟨⟨(i 1).val / 262144, hN⟩, flush0_6 _, ?_⟩
  rw [mem_blk6]
  intro a
  match a with
  | ⟨0, _⟩ =>
    show win0_6.index ⟨(i 1).val / 262144, hN⟩ (0 : Fin 2) * 3 ≤ (i 0).val
      ∧ (i 0).val < win0_6.index ⟨(i 1).val / 262144, hN⟩ (0 : Fin 2) * 3 + 3
    rw [h0]; omega
  | ⟨1, _⟩ =>
    show win0_6.index ⟨(i 1).val / 262144, hN⟩ (1 : Fin 2) * 262144 ≤ (i 1).val
      ∧ (i 1).val < win0_6.index ⟨(i 1).val / 262144, hN⟩ (1 : Fin 2) * 262144 + 262144
    rw [h1]; show (i 1).val / 262144 * 262144 ≤ (i 1).val ∧ (i 1).val < (i 1).val / 262144 * 262144 + 262144; omega

/-- So the region's output array ends holding `Gt`. -/
theorem final6 (c : Dev nD) : (dats m 0 c).arrAt 6 cfg0.N = Gt m c :=
  (dats m 0 c).arrAt_eq_of_cover 6 (Gt m c) (fun t _ => flushed_eq m c t) cover6

/-- The last transposition turns it into the result sample by sample. -/
theorem tail_v3 (c : Dev nD) :
    Pipeline.afterTail₀ cfgs (dats m) 0 (V0 m) [hostOps1] c main_v3
      = Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v3) = _
  after_results
  refine funext_ix2 (A := 2097152) (B := 3) fun s j => ?_
  refine (transpose_apply [1, 0] _ transposes_S3x2097152_S2097152x3_1_0 (ix2 s j) (ix2 j s)
    (fun b => by match b with | ⟨0, _⟩ => rfl | ⟨1, _⟩ => rfl)).trans ?_
  refine (congrFun ((Pipeline.withArrays_arr spec0 launch0.win.arr_inj c _ _ 6).trans (final6 m c)) (ix2 j s)).trans ?_
  rfl

end blocks

/-- Every weakly fair execution of the kernel program ends with its result array at `Spec.G` of the argument arrays
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.Val

end
-- ==== Proof.RefPay.lean ====
/-
  The reference body's stored value read at an index.
-/
import proofs.«145751_g2000606264827696_pallasbulk_793_13_alg».proof.Proof.Gen.ReferenceIdeal.Skeleton
import proofs.«145751_g2000606264827696_pallasbulk_793_13_alg».proof.Proof.Spec
import proofs.«145751_g2000606264827696_pallasbulk_793_13_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Pay

open Idealize.ShloMosaic Idealize.ShloMosaic.ValueIdx Cert.ReferenceIdeal Cert.ReferenceIdeal.Gen
open scoped BigOperators

/-- The four loaded bias rows as one table: row l of `bias v2 v3 v4 v5` is the l-th loaded row (the fourth has 96 entries). -/
def bias (v2 v3 v4 : Vec Ideal S1x256 .f32) (v5 : Vec Ideal S1x96 .f32) (l c : Nat) : EReal :=
  if l = 0 then Spec.at2 v2 0 c else if l = 1 then Spec.at2 v3 0 c else if l = 2 then Spec.at2 v4 0 c else Spec.at2 v5 0 c

/-! ### The pieces read at an index -/

/-- The one row of a 1×b array, by natural-number coordinates. -/
theorem at2_row {b : Nat} (v : FVec Ideal ⟨2, ![1, b]⟩ .f32) (c : Fin b) : Spec.at2 v 0 c.val = v (ix2 (0 : Fin 1) c) :=
  Spec.at2_fin v (0 : Fin 1) c

theorem bias_0 (v2 v3 v4 : FVec Ideal S1x256 .f32) (v5 : FVec Ideal S1x96 .f32) (c : Nat) :
    bias v2 v3 v4 v5 0 c = Spec.at2 v2 0 c := by simp [bias]
theorem bias_1 (v2 v3 v4 : FVec Ideal S1x256 .f32) (v5 : FVec Ideal S1x96 .f32) (c : Nat) :
    bias v2 v3 v4 v5 1 c = Spec.at2 v3 0 c := by simp [bias]
theorem bias_2 (v2 v3 v4 : FVec Ideal S1x256 .f32) (v5 : FVec Ideal S1x96 .f32) (c : Nat) :
    bias v2 v3 v4 v5 2 c = Spec.at2 v4 0 c := by simp [bias]
theorem bias_3 (v2 v3 v4 : FVec Ideal S1x256 .f32) (v5 : FVec Ideal S1x96 .f32) (c : Nat) :
    bias v2 v3 v4 v5 3 c = Spec.at2 v5 0 c := by simp [bias]

/-- The printed dimension records are the plain matrix product's. -/
theorem dot1_eq : dot_S1024x128_S128x256_S1024x256_1_0_0_1_n_n
    = Cert.LibDot.dims dot_S1024x128_S128x256_S1024x256_1_0_0_1_n_n_wf := rfl
theorem dot2_eq : dot_S1024x256_S256x256_S1024x256_1_0_0_1_n_n
    = Cert.LibDot.dims dot_S1024x256_S256x256_S1024x256_1_0_0_1_n_n_wf := rfl
theorem dot3_eq : dot_S1024x256_S256x96_S1024x96_1_0_0_1_n_n
    = Cert.LibDot.dims dot_S1024x256_S256x96_S1024x96_1_0_0_1_n_n_wf := rfl

/-! ### The layers as named values -/

/-- The first hidden layer's block: rectified (rows × first operand + first bias row). -/
def lay1 (v0 : FVec Ideal S1024x128 .f32) (b : FVec Ideal S1x256 .f32) (w : FVec Ideal S128x256 .f32) :
    FVec Ideal S1024x256 .f32 :=
  maximumf (addf (matmul dot_S1024x128_S128x256_S1024x256_1_0_0_1_n_n none
      (shapeCast S1024x128 v0 shapeCasts_S1024x128_S1024x128) w (constant S1024x256 .f32 0x00000000#32))
      (broadcastTo S1024x256 b broadcasts_S1x256_S1024x256))
    (broadcast S1024x256 (Scalar.ofBits .f32 0x00000000#32))

/-- A further hidden layer's block from the previous one. -/
def lay (h : FVec Ideal S1024x256 .f32) (b : FVec Ideal S1x256 .f32) (w : FVec Ideal S256x256 .f32) :
    FVec Ideal S1024x256 .f32 :=
  maximumf (addf (matmul dot_S1024x256_S256x256_S1024x256_1_0_0_1_n_n none h w (constant S1024x256 .f32 0x00000000#32))
      (broadcastTo S1024x256 b broadcasts_S1x256_S1024x256))
    (broadcast S1024x256 (Scalar.ofBits .f32 0x00000000#32))

/-- The output layer's block from the last hidden one. -/
def lay4 (h : FVec Ideal S1024x256 .f32) (b : FVec Ideal S1x96 .f32) (w : FVec Ideal S256x96 .f32) :
    FVec Ideal S1024x96 .f32 :=
  addf (matmul dot_S1024x256_S256x96_S1024x96_1_0_0_1_n_n none h w (constant S1024x96 .f32 0x00000000#32))
    (broadcastTo S1024x96 b broadcasts_S1x96_S1024x96)

/-- The stored value is the four layers in sequence. -/
theorem pay_eq_layers (v0 : FVec Ideal S1024x128 .f32) (v2 v3 v4 : FVec Ideal S1x256 .f32) (v5 : FVec Ideal S1x96 .f32)
    (v6 : FVec Ideal S128x256 .f32) (v12 v18 : FVec Ideal S256x256 .f32) (v24 : FVec Ideal S256x96 .f32) :
    k0_pay1 (F := Ideal) v0 v2 v3 v4 v5 v6 v12 v18 v24
      = lay4 (lay (lay (lay1 v0 v2 v6) v3 v12) v4 v18) v5 v24 := rfl

theorem lay1_apply (v0 : FVec Ideal S1024x128 .f32) (b : FVec Ideal S1x256 .f32) (w : FVec Ideal S128x256 .f32)
    (p : Fin 1024) (c : Fin 256) :
    lay1 v0 b w (ix2 p c) = max ((∑ q : Fin 128, v0 (ix2 p q) * w (ix2 q c)) + b (ix2 (0 : Fin 1) c)) Spec.zero := by
  show max (matmul dot_S1024x128_S128x256_S1024x256_1_0_0_1_n_n none
      (shapeCast S1024x128 v0 shapeCasts_S1024x128_S1024x128) w (constant S1024x256 .f32 0x00000000#32) (ix2 p c)
      + broadcastTo S1024x256 b broadcasts_S1x256_S1024x256 (ix2 p c)) Spec.zero = _
  rw [shapeCast_self, dot1_eq, Cert.LibDot.matmul_zero_apply, broadcastTo_1b_ab_apply]

theorem lay_apply (h : FVec Ideal S1024x256 .f32) (b : FVec Ideal S1x256 .f32) (w : FVec Ideal S256x256 .f32)
    (p : Fin 1024) (c : Fin 256) :
    lay h b w (ix2 p c) = max ((∑ q : Fin 256, h (ix2 p q) * w (ix2 q c)) + b (ix2 (0 : Fin 1) c)) Spec.zero := by
  show max (matmul dot_S1024x256_S256x256_S1024x256_1_0_0_1_n_n none h w (constant S1024x256 .f32 0x00000000#32) (ix2 p c)
      + broadcastTo S1024x256 b broadcasts_S1x256_S1024x256 (ix2 p c)) Spec.zero = _
  rw [dot2_eq, Cert.LibDot.matmul_zero_apply, broadcastTo_1b_ab_apply]

theorem lay4_apply (h : FVec Ideal S1024x256 .f32) (b : FVec Ideal S1x96 .f32) (w : FVec Ideal S256x96 .f32)
    (p : Fin 1024) (c : Fin 96) :
    lay4 h b w (ix2 p c) = (∑ q : Fin 256, h (ix2 p q) * w (ix2 q c)) + b (ix2 (0 : Fin 1) c) := by
  show matmul dot_S1024x256_S256x96_S1024x96_1_0_0_1_n_n none h w (constant S1024x96 .f32 0x00000000#32) (ix2 p c)
      + broadcastTo S1024x96 b broadcasts_S1x96_S1024x96 (ix2 p c) = _
  rw [dot3_eq, Cert.LibDot.matmul_zero_apply, broadcastTo_1b_ab_apply]

/-! ### The layers are the row form's -/

section
variable (v0 : FVec Ideal S1024x128 .f32) (v2 v3 v4 : FVec Ideal S1x256 .f32) (v5 : FVec Ideal S1x96 .f32)
  (v6 : FVec Ideal S128x256 .f32) (v12 v18 : FVec Ideal S256x256 .f32) (v24 : FVec Ideal S256x96 .f32) (p : Fin 1024)

theorem h1_eq (c : Fin 256) :
    lay1 v0 v2 v6 (ix2 p c)
      = Spec.rhid1 (Spec.at2 v6) (bias v2 v3 v4 v5) (fun q => Spec.at2 v0 p.val q) c.val := by
  rw [lay1_apply]
  unfold Spec.rhid1
  rw [bias_0, at2_row]
  congr 2
  exact Finset.sum_congr rfl fun q _ => by simp only [Spec.at2_fin]

theorem h2_eq (c : Fin 256) :
    lay (lay1 v0 v2 v6) v3 v12 (ix2 p c)
      = Spec.rhid2 (Spec.at2 v6) (Spec.at2 v12) (bias v2 v3 v4 v5) (fun q => Spec.at2 v0 p.val q) c.val := by
  rw [lay_apply]
  unfold Spec.rhid2
  rw [bias_1, at2_row]
  congr 2
  exact Finset.sum_congr rfl fun q _ => by rw [Spec.at2_fin, h1_eq v0 v2 v3 v4 v5 v6 p q]

theorem h3_eq (c : Fin 256) :
    lay (lay (lay1 v0 v2 v6) v3 v12) v4 v18 (ix2 p c)
      = Spec.rhid3 (Spec.at2 v6) (Spec.at2 v12) (Spec.at2 v18) (bias v2 v3 v4 v5)
          (fun q => Spec.at2 v0 p.val q) c.val := by
  rw [lay_apply]
  unfold Spec.rhid3
  rw [bias_2, at2_row]
  congr 2
  exact Finset.sum_congr rfl fun q _ => by rw [Spec.at2_fin, h2_eq v0 v2 v3 v4 v5 v6 v12 p q]

end

/-- Entry (p, c) of the value the body stores: column c of the row form of the network on row p of the loaded block
    `v0`, with the whole operands v6, v12, v18, v24 as weights and the loaded rows as biases. -/
theorem pay_apply (v0 : Vec Ideal S1024x128 .f32) (v2 v3 v4 : Vec Ideal S1x256 .f32) (v5 : Vec Ideal S1x96 .f32)
    (v6 : Vec Ideal S128x256 .f32) (v12 v18 : Vec Ideal S256x256 .f32) (v24 : Vec Ideal S256x96 .f32)
    (p : Fin 1024) (c : Fin 96) :
    k0_pay1 (F := Ideal) v0 v2 v3 v4 v5 v6 v12 v18 v24 (ix2 p c)
      = Spec.routp (Spec.at2 v6) (Spec.at2 v12) (Spec.at2 v18) (Spec.at2 v24) (bias v2 v3 v4 v5)
          (fun q => Spec.at2 v0 p.val q) c.val := by
  rw [pay_eq_layers, lay4_apply]
  unfold Spec.routp
  rw [bias_3, at2_row]
  congr 1
  exact Finset.sum_congr rfl fun q _ => by rw [Spec.at2_fin, h3_eq v0 v2 v3 v4 v5 v6 v12 v18 p q]

end Cert.ReferenceIdeal.Pay

end
-- ==== Proof.RefValue.lean ====
/-
  What the reference program leaves in its result array.

  The program reshapes the batch X (2097152×4) into rows of 32 samples (65536×128, entry (r, q) being X (32r + q/4, q%4)),
  runs the row form of the network on blocks of 1024 rows, and reshapes the 65536×96 result back to 2097152×3 (entry (s, j)
  being the row result's entry (s/32, 3(s%32) + j)). Below: the body's stored block as the row form on the loaded blocks
  (`body_apply`), the blocks as parts of the arrays (`iblk…`), the row result as one function `Gr` of the arguments
  (`flushed_eq`, `cover`, `final`), the last reshape (`tail_eq`), and the run.
-/
import proofs.«145751_g2000606264827696_pallasbulk_793_13_alg».proof.Proof.Gen.ReferenceIdeal.Frame
import proofs.«145751_g2000606264827696_pallasbulk_793_13_alg».proof.Proof.RefPay
import proofs.«145751_g2000606264827696_pallasbulk_793_13_alg».proof.Proof.Spec
import proofs.«145751_g2000606264827696_pallasbulk_793_13_alg».proof.Proof.SpecCongr
import Idealize.ShloMosaic.Lib.ValueIdx
import Idealize.ShloMosaic.Lib.Pipeline.Value

noncomputable section

namespace Cert.ReferenceIdeal.Val

open Idealize.ShloMosaic Idealize.ShloMosaic.TcCoe Idealize.ShloMosaic.ValueIdx Idealize.SL.Sem
open Cert.ReferenceIdeal Cert.ReferenceIdeal.Gen
open Idealize.ShloMosaic.Pipeline (Dat)

theorem hz : (![0, 0] : Fin 2 → Nat) = fun _ => 0 := funext fun a => by fin_cases a <;> rfl

/-! ## The body's stored block on the loaded blocks -/

/-- A load of one row (or the leading part of one row) of the 4×256 bias block, read by natural-number coordinates:
    entry (0, c) of the load from offsets (l, 0) is entry (l, c) of the block. -/
theorem at2_ld_row (x5 : Vec Ideal S4x256 .f32) (off : Fin 2 → Nat) (w l : Nat) (h0 : off 0 = l) (h1 : off 1 = 0)
    (inb : ∀ a, off a + (![1, w] : Fin 2 → Nat) a ≤ S4x256.size a) (c : Nat) (hc : c < w) :
    Spec.at2 (a := 1) (b := w) (View.ld x5 (Rect.unit (s := S4x256) off ![1, w] inb)) 0 c = Spec.at2 x5 l c := by
  have hl : off 0 + 1 ≤ 4 := inb 0
  have hw : off 1 + w ≤ 256 := inb 1
  rw [Spec.at2_of_lt _ Nat.zero_lt_one hc, Spec.at2_of_lt x5 (by omega : l < 4) (by omega : c < 256)]
  refine congrArg x5 (funext fun a => Fin.ext ?_)
  match a with
  | ⟨0, _⟩ => show off 0 + 1 * 0 = l; omega
  | ⟨1, _⟩ => show off 1 + 1 * c = c; omega

/-- The four loaded bias rows, as the table the stored value reads them through, are the bias block's rows where read. -/
theorem bias_ld (x5 : Vec Ideal S4x256 .f32) (l c : Nat) (h : (l < 3 ∧ c < 256) ∨ (l = 3 ∧ c < 96)) :
    Pay.bias (View.ld x5 r0_1) (View.ld x5 r0_2) (View.ld x5 r0_3) (View.ld x5 r0_4) l c = Spec.at2 x5 l c := by
  rcases h with ⟨hl, hc⟩ | ⟨rfl, hc⟩
  · have : l = 0 ∨ l = 1 ∨ l = 2 := by omega
    rcases this with rfl | rfl | rfl
    · unfold Pay.bias; rw [if_pos rfl]; exact at2_ld_row x5 ![0, 0] 256 0 rfl rfl _ c hc
    · unfold Pay.bias; rw [if_neg (by decide), if_pos rfl]; exact at2_ld_row x5 ![1, 0] 256 1 rfl rfl _ c hc
    · unfold Pay.bias; rw [if_neg (by decide), if_neg (by decide), if_pos rfl]; exact at2_ld_row x5 ![2, 0] 256 2 rfl rfl _ c hc
  · unfold Pay.bias; rw [if_neg (by decide), if_neg (by decide), if_neg (by decide)]; exact at2_ld_row x5 ![3, 0] 96 3 rfl rfl _ c hc

/-- Entry (p, c) of what the body leaves in the result's buffer: column c of the row form of the network on row p of the
    batch block, the operands' blocks as weights and biases. -/
theorem body_apply (x0 : Vec Ideal S1024x128 .f32) (x1 : Vec Ideal S128x256 .f32) (x2 x3 : Vec Ideal S256x256 .f32)
    (x4 : Vec Ideal S256x96 .f32) (x5 : Vec Ideal S4x256 .f32) (p : Fin 1024) (c : Fin 96) :
    out0_6 (F := Ideal) x0 x1 x2 x3 x4 x5 (ix2 p c)
      = Spec.routp (Spec.at2 x1) (Spec.at2 x2) (Spec.at2 x3) (Spec.at2 x4) (Spec.at2 x5) (fun q => Spec.at2 x0 p.val q) c.val := by
  unfold out0_6
  rw [View.canon_unit_zero hz]
  simp only [View.ld_unit_zero (S := S1024x128) hz, View.ld_unit_zero (S := S128x256) hz,
    View.ld_unit_zero (S := S256x256) hz, View.ld_unit_zero (S := S256x96) hz]
  rw [Pay.pay_apply]
  exact Spec.routp_congr (fun _ _ _ _ => rfl) (fun _ _ _ _ => rfl) (fun _ _ _ _ => rfl) (fun _ _ _ _ => rfl)
    (fun l c hl hc => bias_ld x5 l c (Or.inl ⟨hl, hc⟩)) (fun c hc => bias_ld x5 3 c (Or.inr ⟨rfl, hc⟩))
    (fun _ _ => rfl) c.isLt

section Body

variable (m : (ℓ : Loc nD τ sig) → Buf (Elt Ideal) ℓ)

/-! ## The arrays the region finds -/

/-- The batch as rows of 32 samples: what the first reshape leaves. -/
theorem V_main_v0 (c : Dev nD) :
    (V m c main_v0 : Vec Ideal S65536x128 .f32)
      = shapeCast S65536x128 (m ((c : Thread nD τ).loc main_arg0)) shapeCasts_S2097152x4_S65536x128 := by
  show StableHlo.after hostOps0 (fun b => m (c, b)) (Proc.devRef .tc main_v0) = _
  after_results
  rfl

/-- Entry (r, q) of it is entry (32r + q/4, q%4) of the batch. -/
theorem V_main_v0_apply (c : Dev nD) (r : Fin 65536) (q : Fin 128) :
    (V m c main_v0 : Vec Ideal S65536x128 .f32) (ix2 r q)
      = Spec.at2 (a := 2097152) (b := 4) (m ((c : Thread nD τ).loc main_arg0)) (32 * r.val + q.val / 4) (q.val % 4) := by
  rw [V_main_v0]
  have h1 : 32 * r.val + q.val / 4 < 2097152 := by omega
  have h2 : q.val % 4 < 4 := Nat.mod_lt _ (by decide)
  rw [Spec.at2_of_lt _ h1 h2]
  refine shapeCast_apply _ _ (ix2 r q) (ix2 ⟨_, h1⟩ ⟨_, h2⟩) ?_
  rw [Shape.rowMajor_val_two, Shape.rowMajor_val_two]
  show (32 * r.val + q.val / 4) * 4 + q.val % 4 = r.val * 128 + q.val
  omega

/-! ## The windows' blocks -/

/-- The index maps, decided over the 64 points: the batch rows' and the result's block index is the point, every operand's
    is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The batch rows' block at point t: rows 1024t … 1024t + 1023. -/
theorem iblk0_ix (c : Dev nD) (t : Fin cfg0.N) (p : Fin 1024) (q : Fin 128) (r : Fin 65536) (hr : r.val = 1024 * t.val + p.val) :
    (iblk m c 0 t : Vec Ideal S1024x128 .f32) (ix2 p q) = (V m c main_v0 : Vec Ideal S65536x128 .f32) (ix2 r q) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t 0 * 1024 + 1 * p.val = r.val; rw [e0, hr]; omega
  | ⟨1, _⟩ => show win0_0.index t 1 * 128 + 1 * q.val = q.val; rw [e1]; omega

theorem iblk1_eq (c : Dev nD) (t : Fin cfg0.N) :
    (iblk m c 1 t : Vec Ideal S128x256 .f32) = m ((c : Thread nD τ).loc main_arg1) := by
  obtain ⟨-, -, e0, e1, -⟩ := idx_facts t
  funext j
  unfold iblk
  rw [View.read_apply]
  show V m c main_arg1 _ = _
  rw [V_main_arg1 m c]
  refine congrArg (m ((c : Thread nD τ).loc main_arg1)) (funext fun a => Fin.ext ?_)
  match a with
  | ⟨0, _⟩ => show win0_1.index t 0 * 128 + 1 * (j 0).val = (j 0).val; rw [e0]; omega
  | ⟨1, _⟩ => show win0_1.index t 1 * 256 + 1 * (j 1).val = (j 1).val; rw [e1]; omega

theorem iblk2_eq (c : Dev nD) (t : Fin cfg0.N) :
    (iblk m c 2 t : Vec Ideal S256x256 .f32) = m ((c : Thread nD τ).loc main_arg2) := by
  obtain ⟨-, -, -, -, e0, e1, -⟩ := idx_facts t
  funext j
  unfold iblk
  rw [View.read_apply]
  show V m c main_arg2 _ = _
  rw [V_main_arg2 m c]
  refine congrArg (m ((c : Thread nD τ).loc main_arg2)) (funext fun a => Fin.ext ?_)
  match a with
  | ⟨0, _⟩ => show win0_2.index t 0 * 256 + 1 * (j 0).val = (j 0).val; rw [e0]; omega
  | ⟨1, _⟩ => show win0_2.index t 1 * 256 + 1 * (j 1).val = (j 1).val; rw [e1]; omega

theorem iblk3_eq (c : Dev nD) (t : Fin cfg0.N) :
    (iblk m c 3 t : Vec Ideal S256x256 .f32) = m ((c : Thread nD τ).loc main_arg3) := by
  obtain ⟨-, -, -, -, -, -, e0, e1, -⟩ := idx_facts t
  funext j
  unfold iblk
  rw [View.read_apply]
  show V m c main_arg3 _ = _
  rw [V_main_arg3 m c]
  refine congrArg (m ((c : Thread nD τ).loc main_arg3)) (funext fun a => Fin.ext ?_)
  match a with
  | ⟨0, _⟩ => show win0_3.index t 0 * 256 + 1 * (j 0).val = (j 0).val; rw [e0]; omega
  | ⟨1, _⟩ => show win0_3.index t 1 * 256 + 1 * (j 1).val = (j 1).val; rw [e1]; omega

theorem iblk4_eq (c : Dev nD) (t : Fin cfg0.N) :
    (iblk m c 4 t : Vec Ideal S256x96 .f32) = m ((c : Thread nD τ).loc main_arg4) := by
  obtain ⟨-, -, -, -, -, -, -, -, e0, e1, -⟩ := idx_facts t
  funext j
  unfold iblk
  rw [View.read_apply]
  show V m c main_arg4 _ = _
  rw [V_main_arg4 m c]
  refine congrArg (m ((c : Thread nD τ).loc main_arg4)) (funext fun a => Fin.ext ?_)
  match a with
  | ⟨0, _⟩ => show win0_4.index t 0 * 256 + 1 * (j 0).val = (j 0).val; rw [e0]; omega
  | ⟨1, _⟩ => show win0_4.index t 1 * 96 + 1 * (j 1).val = (j 1).val; rw [e1]; omega

theorem iblk5_eq (c : Dev nD) (t : Fin cfg0.N) :
    (iblk m c 5 t : Vec Ideal S4x256 .f32) = m ((c : Thread nD τ).loc main_arg5) := by
  obtain ⟨-, -, -, -, -, -, -, -, -, -, e0, e1, -⟩ := idx_facts t
  funext j
  unfold iblk
  rw [View.read_apply]
  show V m c main_arg5 _ = _
  rw [V_main_arg5 m c]
  refine congrArg (m ((c : Thread nD τ).loc main_arg5)) (funext fun a => Fin.ext ?_)
  match a with
  | ⟨0, _⟩ => show win0_5.index t 0 * 4 + 1 * (j 0).val = (j 0).val; rw [e0]; omega
  | ⟨1, _⟩ => show win0_5.index t 1 * 256 + 1 * (j 1).val = (j 1).val; rw [e1]; omega

/-- Row p of the batch rows' block at point t, by natural-number coordinates: row 1024t + p of the reshaped batch. -/
theorem iblk0_at2 (c : Dev nD) (t : Fin cfg0.N) (p : Fin 1024) (hr : 1024 * t.val + p.val < 65536) (q : Nat) (hq : q < 128) :
    Spec.at2 (a := 1024) (b := 128) (iblk m c 0 t) p.val q
      = Spec.at2 (a := 2097152) (b := 4) (m ((c : Thread nD τ).loc main_arg0)) (32 * (1024 * t.val + p.val) + q / 4) (q % 4) :=
  (Spec.at2_of_lt (a := 1024) (b := 128) (iblk m c 0 t) p.isLt hq).trans
    ((iblk0_ix m c t p ⟨q, hq⟩ ⟨1024 * t.val + p.val, hr⟩ rfl).trans (V_main_v0_apply m c ⟨1024 * t.val + p.val, hr⟩ ⟨q, hq⟩))

/-! ## The row result as one function of the arguments -/

/-- Entry (r, c) of the row result: column c of the row form of the network on row r of the reshaped batch. -/
def Gr (X : Spec.Arr 2097152 4) (M1 : Spec.Arr 128 256) (M2 M3 : Spec.Arr 256 256) (M4 : Spec.Arr 256 96)
    (B : Spec.Arr 4 256) : Spec.Arr 65536 96 :=
  fun i => Spec.routp (Spec.at2 M1) (Spec.at2 M2) (Spec.at2 M3) (Spec.at2 M4) (Spec.at2 B)
    (fun q => Spec.at2 X (32 * (i 0).val + q / 4) (q % 4)) (i 1).val

/-- `Gr` of the argument arrays as launched. -/
abbrev GrOf (c : Dev nD) : Spec.Arr 65536 96 :=
  Gr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point t leaves in the result's buffer at (p, q) is `Gr` at row 1024t + p. -/
theorem flushed_at (c : Dev nD) (t : Fin cfg0.N) (p : Fin 1024) (q : Fin 96) (hr : 1024 * t.val + p.val < 65536) :
    out0_6 (F := Ideal) (iblk m c 0 t) (iblk m c 1 t) (iblk m c 2 t) (iblk m c 3 t) (iblk m c 4 t) (iblk m c 5 t) (ix2 p q)
      = GrOf m c (ix2 ⟨1024 * t.val + p.val, hr⟩ q) := by
  refine (body_apply (iblk m c 0 t) (iblk m c 1 t) (iblk m c 2 t) (iblk m c 3 t) (iblk m c 4 t) (iblk m c 5 t) p q).trans ?_
  exact Cert.Spec.routp_congr
    (fun a b _ _ => congrArg (fun M : Vec Ideal S128x256 .f32 => Spec.at2 M a b) (iblk1_eq m c t))
    (fun a b _ _ => congrArg (fun M : Vec Ideal S256x256 .f32 => Spec.at2 M a b) (iblk2_eq m c t))
    (fun a b _ _ => congrArg (fun M : Vec Ideal S256x256 .f32 => Spec.at2 M a b) (iblk3_eq m c t))
    (fun a b _ _ => congrArg (fun M : Vec Ideal S256x96 .f32 => Spec.at2 M a b) (iblk4_eq m c t))
    (fun a b _ _ => congrArg (fun M : Vec Ideal S4x256 .f32 => Spec.at2 M a b) (iblk5_eq m c t))
    (fun b _ => congrArg (fun M : Vec Ideal S4x256 .f32 => Spec.at2 M 3 b) (iblk5_eq m c t))
    (fun a ha => iblk0_at2 m c t p hr a ha) q.isLt

/-- WHAT POINT t WRITES BACK is block t of `Gr`. -/
theorem flushed_eq (c : Dev nD) (t : Fin cfg0.N) :
    (dats m 0 c).flushed 6 t = ((cfg0.win 6).blk t).view.read (Elt Ideal) (GrOf m c) := by
  show (cfg0.win 6).cut (grid0.coords t) ((dats m 0 c).after 6 t) = _
  rw [after0_6]
  refine funext fun (j : S1024x96.Idx) => ?_
  obtain ⟨p, q, rfl⟩ : ∃ (p : Fin 1024) (q : Fin 96), j = ix2 p q := ⟨j 0, j 1, eq_ix2 j⟩
  obtain ⟨-, -, -, -, -, -, -, -, -, -, -, -, e0, e1⟩ := idx_facts t
  have hN : cfg0.N = 64 := N_0
  have hr : 1024 * t.val + p.val < 65536 := by have := t.isLt; omega
  refine (flushed_at m c t p q hr).trans ?_
  show GrOf m c _ = GrOf m c (((cfg0.win 6).blk t).view.emb (ix2 p q))
  refine congrArg (GrOf m c) (funext fun a => Fin.ext ?_)
  match a with
  | ⟨0, _⟩ => show 1024 * t.val + p.val = win0_6.index t 0 * 1024 + 1 * p.val; rw [e0]; omega
  | ⟨1, _⟩ => show q.val = win0_6.index t 1 * 96 + 1 * q.val; rw [e1]; omega

/-! ## From the blocks to the array -/

/-- An index of the result array is in point t's block iff each coordinate is in the block's range on its axis. -/
theorem mem_blk (t : Fin cfg0.N) (i : S65536x96.Idx) :
    i ∈ ((cfg0.win 6).blk t).view.set ↔ ∀ a : Fin 2, win0_6.index t a * S1024x96.size a ≤ (i a).val
      ∧ (i a).val < win0_6.index t a * S1024x96.size a + S1024x96.size a := by
  show i ∈ ((View.whole main_v1).slice (win0_6.rect t)).set ↔ _
  rw [View.set_slice_whole, Rect.mem_set_unit]
  exact Iff.rfl

/-- Row r of the result is in the block of point r / 1024. -/
theorem cover (i : S65536x96.Idx) :
    ∃ t : Fin cfg0.N, (cfg0.win 6).flush t = true ∧ i ∈ ((cfg0.win 6).blk t).view.set := by
  have hN : cfg0.N = 64 := N_0
  have hi0 : (i 0).val < 65536 := (i 0).isLt
  have hi1 : (i 1).val < 96 := (i 1).isLt
  obtain ⟨t, ht⟩ : ∃ t : Fin cfg0.N, t.val = (i 0).val / 1024 := ⟨⟨(i 0).val / 1024, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t 0 * 1024 ≤ (i 0).val ∧ (i 0).val < win0_6.index t 0 * 1024 + 1024
    rw [e0, ht]; omega
  | ⟨1, _⟩ =>
    show win0_6.index t 1 * 96 ≤ (i 1).val ∧ (i 1).val < win0_6.index t 1 * 96 + 96
    rw [e1]; omega

/-- THE ROW RESULT after the region is `Gr` of the arguments. -/
theorem final (c : Dev nD) : (dats m 0 c).arrAt 6 cfg0.N = GrOf m c :=
  (dats m 0 c).arrAt_eq_of_cover 6 (GrOf m c) (fun t _ => flushed_eq m c t) cover

/-! ## The last reshape -/

/-- The result array after the last reshape: entry (s, j) is the row result's entry (s / 32, 3 (s % 32) + j), which is the
    row form on row s / 32 of the reshaped batch read at column 3 (s % 32) + j. -/
theorem tail_eq (c : Dev nD) :
    Pipeline.afterTail₀ cfgs (dats m) 0 (V0 m) [hostOps1] c main_v2
      = Spec.Grow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold Pipeline.afterTail₀
  show StableHlo.after hostOps1 _ (Proc.devRef .tc main_v2) = _
  after_results
  have hW : (Pipeline.withArrays (cfgs 0).spec c (V0 m c) (fun w => (dats m 0 c).arrAt w (cfgs 0).N)
      (Proc.devRef .tc main_v1) : Spec.Arr 65536 96) = GrOf m c :=
    (Pipeline.withArrays_arr spec0 launch0.win.arr_inj c _ _ 6).trans (final m c)
  funext i
  obtain ⟨s, j, rfl⟩ : ∃ (s : Fin 2097152) (j : Fin 3), i = ix2 s j := ⟨i 0, i 1, eq_ix2 i⟩
  have hs : s.val / 32 < 65536 := by omega
  have hj : 3 * (s.val % 32) + j.val < 96 := by omega
  refine (congrArg (fun x : Spec.Arr 65536 96 => shapeCast S2097152x3 x shapeCasts_S65536x96_S2097152x3 (ix2 s j)) hW).trans ?_
  refine (shapeCast_apply _ _ (ix2 s j) (ix2 ⟨s.val / 32, hs⟩ ⟨3 * (s.val % 32) + j.val, hj⟩) ?_).trans ?_
  · rw [Shape.rowMajor_val_two, Shape.rowMajor_val_two]
    show s.val / 32 * 96 + (3 * (s.val % 32) + j.val) = s.val * 3 + j.val
    omega
  · rfl

end Body

/-- Every weakly fair execution of the reference program ends with its result array at `Spec.Grow` of the argument
    arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Spec.Grow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.ReferenceIdeal.Val

end
-- ==== Proof.lean ====
/-
  Both programs evaluate a four-layer perceptron (4 → 8 → 8 → 8 → 3 features, a rectifier after each of the first three
  layers) on 2097152 samples. The operands are not the weight matrices themselves but their packed forms: each weight
  operand is block diagonal with 32 copies of the transposed weight matrix, and each bias row is the bias vector
  repeated 32 times, so that 32 samples laid side by side in one row of 128 entries can be pushed through a layer by
  one product with the whole operand. That is what the reference does, row by row (Spec.Grow). The kernel instead
  keeps one sample per column, reads only the corner block of each operand — one copy of the weight matrix — and
  applies it to every column (Spec.G). The two agree exactly when the operands are packed as described
  (Spec.Packed), which the precondition states entry by entry: the first block row and the first block column of a
  weight operand vanish outside the corner block and the operand is unchanged by a shift of one block down the
  diagonal; a bias row is unchanged by a shift of one block. Under it, the product of a row with a column of an
  operand only meets one block of the row, the other terms being products with zero (which vanish on the extended
  reals whatever the other factor), and what is left is the corner block applied to one sample (Algebra.lean).
  Finiteness of the inputs is not used.

  The three frame claims are the generated frames; the idealization rewrote nothing, so there is nothing to preserve.
  The values: KernelValue.lean reads the kernel program's result off its frame run (a transpose before the region,
  eight column blocks, a transpose after it) and RefValue.lean the reference's (a reshape before the region, sixty-four
  row blocks, a reshape after it); KernelPay.lean and RefPay.lean read the two bodies' stored values at an index;
  Contract.lean reads the precondition.
-/
import proofs.«145751_g2000606264827696_pallasbulk_793_13_alg».proof.Defs
import proofs.«145751_g2000606264827696_pallasbulk_793_13_alg».proof.Proof.Gen.Kernel
import proofs.«145751_g2000606264827696_pallasbulk_793_13_alg».proof.Proof.Gen.Kernel.Frame
import proofs.«145751_g2000606264827696_pallasbulk_793_13_alg».proof.Proof.Gen.KernelIdeal
import proofs.«145751_g2000606264827696_pallasbulk_793_13_alg».proof.Proof.Gen.KernelIdeal.Frame
import proofs.«145751_g2000606264827696_pallasbulk_793_13_alg».proof.Proof.Gen.ReferenceIdeal
import proofs.«145751_g2000606264827696_pallasbulk_793_13_alg».proof.Proof.Gen.ReferenceIdeal.Frame
import proofs.«145751_g2000606264827696_pallasbulk_793_13_alg».proof.Proof.Gen.Pre_finite_inputs
import proofs.«145751_g2000606264827696_pallasbulk_793_13_alg».proof.Proof.Spec
import proofs.«145751_g2000606264827696_pallasbulk_793_13_alg».proof.Proof.Algebra
import proofs.«145751_g2000606264827696_pallasbulk_793_13_alg».proof.Proof.Contract
import proofs.«145751_g2000606264827696_pallasbulk_793_13_alg».proof.Proof.KernelValue
import proofs.«145751_g2000606264827696_pallasbulk_793_13_alg».proof.Proof.RefValue
import Idealize.ShloMosaic.Adequacy
import Idealize.ShloMosaic.Init

noncomputable section

namespace Cert.Proof

open Idealize.ShloMosaic Idealize.SL.Sem

/-- From memories that agree on the arguments and satisfy the precondition, the kernel program ends with the
    per-sample form of the network in its result array, the reference with the row form; the precondition makes the
    operands packed, and then the two forms are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Val.run m ρ, ?_⟩
  refine (θ_run Cert.ReferenceIdeal.defs _ _).mono (fun r h c => ?_) (Cert.ReferenceIdeal.Val.run m' ρ')
  obtain ⟨h0, hrest⟩ := h c
  obtain ⟨a0, a1, a2, a3, a4, a5⟩ := hagree c
  refine ⟨?_, hrest⟩
  rw [h0, a0, a1, a2, a3, a4, a5]
  exact Cert.Algebra.Grow_eq_G _ _ _ _ _ _
    (@Cert.Contract.packed_of_pre Cert.Pre_finite_inputs.Gen.facts _ _ _ _ _ _ (hpre c))

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
